-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000x64 : Shape := ⟨2, ![1000000, 64]⟩
abbrev S1000000 : Shape := ⟨1, ![1000000]⟩
abbrev S192x128 : Shape := ⟨2, ![192, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg9 : FVec F S128 .f32) (main_arg10 : FVec F S128x64 .f32) (main_arg11 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x64 .f32) (main_arg7 : FVec F S64 .f32) (main_arg8 : FVec F S128x128 .f32) (main_arg9 : FVec F S128 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x64 .f32) (main_arg1 : FVec F S1000000x64 .f32) (main_arg2 : IVec S1000000 32) (main_arg3 : IVec S1000000 32) (main_arg4 : FVec F S192x128 .f32) (main_arg5 : FVec F S128 .f32) (main_arg6 : FVec F S128x64 .f32) (main_arg7 : FVec F S64 .f32) (main_arg8 : FVec F S128x128 .f32) (main_arg9 : FVec F S128 .f32) (main_arg10 : FVec F S128x64 .f32) (main_arg11 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S192x128 .f32 := Host.absf main_arg4
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x64 : Shape := ⟨2, ![100000, 64]⟩
abbrev S1000000x64 : Shape := ⟨2, ![1000000, 64]⟩
abbrev S1000000 : Shape := ⟨1, ![1000000]⟩
abbrev S192x128 : Shape := ⟨2, ![192, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S_ : Shape := ⟨0, ![]⟩
abbrev S1000000x1 : Shape := ⟨2, ![1000000, 1]⟩
abbrev S64x128 : Shape := ⟨2, ![64, 128]⟩
abbrev S1x128 : Shape := ⟨2, ![1, 128]⟩
abbrev S1x64 : Shape := ⟨2, ![1, 64]⟩
abbrev S8000x64 : Shape := ⟨2, ![8000, 64]⟩
abbrev S8000x128 : Shape := ⟨2, ![8000, 128]⟩
abbrev S10000x64 : Shape := ⟨2, ![10000, 64]⟩
abbrev S10000x128 : Shape := ⟨2, ![10000, 128]⟩

abbrev nBuf : Space → Nat
  | .hbm => 47
  | .vmem => 25
  | .smem => 0
  | _ => 0

abbrev bufTy : (tb : Table) → Fin (tcTables nBuf tb) → BufTy
  | .hbm, ⟨0, _⟩ => ⟨S100000x64, .f32⟩
  | .hbm, ⟨1, _⟩ => ⟨S1000000x64, .f32⟩
  | .hbm, ⟨2, _⟩ => ⟨S1000000, .i32⟩
  | .hbm, ⟨3, _⟩ => ⟨S1000000, .i32⟩
  | .hbm, ⟨4, _⟩ => ⟨S192x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x64, .f32⟩
  | .hbm, ⟨21, _⟩ => ⟨S1000000x64, .bf16⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000x64, .f32⟩
  | .hbm, ⟨31, _⟩ => ⟨S1000000x64, .bf16⟩
  | .hbm, ⟨32, _⟩ => ⟨S64x128, .f32⟩
  | .hbm, ⟨33, _⟩ => ⟨S64x128, .f32⟩
  | .hbm, ⟨34, _⟩ => ⟨S64x128, .f32⟩
  | .hbm, ⟨35, _⟩ => ⟨S1x128, .f32⟩
  | .hbm, ⟨36, _⟩ => ⟨S1x64, .f32⟩
  | .hbm, ⟨37, _⟩ => ⟨S1000000x64, .f32⟩
  | .hbm, ⟨38, _⟩ => ⟨S_, .f32⟩
  | .hbm, ⟨39, _⟩ => ⟨S100000x64, .f32⟩
  | .hbm, ⟨40, _⟩ => ⟨S1000000x1, .i32⟩
  | .hbm, ⟨41, _⟩ => ⟨S100000x64, .f32⟩
  | .hbm, ⟨42, _⟩ => ⟨S64x128, .f32⟩
  | .hbm, ⟨43, _⟩ => ⟨S64x128, .f32⟩
  | .hbm, ⟨44, _⟩ => ⟨S1x128, .f32⟩
  | .hbm, ⟨45, _⟩ => ⟨S1x64, .f32⟩
  | .hbm, ⟨46, _⟩ => ⟨S100000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .bf16⟩
  | .local _ .vmem, ⟨3, _⟩ => ⟨S8000x64, .bf16⟩
  | .local _ .vmem, ⟨4, _⟩ => ⟨S8000x64, .bf16⟩
  | .local _ .vmem, ⟨5, _⟩ => ⟨S8000x64, .bf16⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S1x128, .f32⟩
  | .local _ .vmem, ⟨10, _⟩ => ⟨S128x64, .f32⟩
  | .local _ .vmem, ⟨11, _⟩ => ⟨S1x64, .f32⟩
  | .local _ .vmem, ⟨12, _⟩ => ⟨S8000x64, .f32⟩
  | .local _ .vmem, ⟨13, _⟩ => ⟨S8000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S64x128, .f32⟩
  | .local _ .vmem, ⟨19, _⟩ => ⟨S64x128, .f32⟩
  | .local _ .vmem, ⟨20, _⟩ => ⟨S1x128, .f32⟩
  | .local _ .vmem, ⟨21, _⟩ => ⟨S128x64, .f32⟩
  | .local _ .vmem, ⟨22, _⟩ => ⟨S1x64, .f32⟩
  | .local _ .vmem, ⟨23, _⟩ => ⟨S10000x64, .f32⟩
  | .local _ .vmem, ⟨24, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bitsLt_bf16_f32 : FTy.bits .bf16 < FTy.bits .f32
  slices_S192x128_S64x128_0_0 : S192x128.Slices ![0, 0] S64x128
  slices_S192x128_S64x128_64_0 : S192x128.Slices ![64, 0] S64x128
  slices_S192x128_S64x128_128_0 : S192x128.Slices ![128, 0] S64x128
  shapeCasts_S128_S1x128 : S128.ShapeCasts S1x128
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  bcast_S_S100000x64 : S_.BroadcastsInDim S100000x64 (![] : Fin 0 → Fin S100000x64.rank)
  slices_S128x128_S64x128_0_0 : S128x128.Slices ![0, 0] S64x128
  slices_S128x128_S64x128_64_0 : S128x128.Slices ![64, 0] S64x128
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x128_S10000x128 : S1x128.Broadcasts S10000x128
  broadcasts_S1x64_S10000x64 : S1x64.Broadcasts S10000x64
  gather_S100000x64_S1000000x1_S1000000x64_1_0_n_n_0_1_164_wf : GatherDims.WF S100000x64 S1000000x1 S1000000x64 [1] [0] [] [0] [] 1 ![1, 64]
  dot_S8000x64_S64x128_S8000x128_1_0_0_1_n_n_wf : DotDims.WF S8000x64 S64x128 S8000x128 [1] [0] [0] [1] [] []
  dot_S8000x128_S128x64_S8000x64_1_0_0_1_n_n_wf : DotDims.WF S8000x128 S128x64 S8000x64 [1] [0] [0] [1] [] []
  scatter_S100000x64_S1000000x1_S1000000x64_1_0_0_1_wf : ScatterDims.WF S100000x64 S1000000x1 S1000000x64 [1] [0] [0] 1
  dot_S10000x64_S64x128_S10000x128_1_0_0_1_n_n_wf : DotDims.WF S10000x64 S64x128 S10000x128 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1000000x64.size a
  hwx0_0 : ∀ i : grid0.Coords, EltTy.bits .f32 = 32 ∨ (Rect.block (s := S1000000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1000000x64.size a
  hwx0_1 : ∀ i : grid0.Coords, EltTy.bits .bf16 = 32 ∨ (Rect.block (s := S1000000x64) S8000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S1000000x64.size a
  hwx0_2 : ∀ i : grid0.Coords, EltTy.bits .bf16 = 32 ∨ (Rect.block (s := S1000000x64) S8000x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x64.size a ≤ S1000000x64.size a
  hwx0_9 : ∀ i : grid0.Coords, EltTy.bits .f32 = 32 ∨ (Rect.block (s := S1000000x64) S8000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S100000x64.size a
  hwx1_7 : ∀ i : grid1.Coords, EltTy.bits .f32 = 32 ∨ (Rect.block (s := S100000x64) S10000x64.size (cc1_transform_7 i) (hinb1_7 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_arg1) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S8000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S8000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v24) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S10000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S1000000x64 : Shape := ⟨2, ![1000000, 64]⟩
abbrev S1000000 : Shape := ⟨1, ![1000000]⟩
abbrev S192x128 : Shape := ⟨2, ![192, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S_ : Shape := ⟨0, ![]⟩
abbrev S1000000x1 : Shape := ⟨2, ![1000000, 1]⟩
abbrev S1000000x192 : Shape := ⟨2, ![1000000, 192]⟩
abbrev S1000000x128 : Shape := ⟨2, ![1000000, 128]⟩
abbrev S1x128 : Shape := ⟨2, ![1, 128]⟩
abbrev S1x64 : Shape := ⟨2, ![1, 64]⟩
abbrev S100000x128 : Shape := ⟨2, ![100000, 128]⟩

abbrev nBuf : Space → Nat
  | .hbm => 58
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000x64, .f32⟩
  | .hbm, ⟨2, _⟩ => ⟨S1000000, .i32⟩
  | .hbm, ⟨3, _⟩ => ⟨S1000000, .i32⟩
  | .hbm, ⟨4, _⟩ => ⟨S192x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x64, .f32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x64, .f32⟩
  | .hbm, ⟨30, _⟩ => ⟨S1000000x192, .f32⟩
  | .hbm, ⟨31, _⟩ => ⟨S1000000x128, .f32⟩
  | .hbm, ⟨32, _⟩ => ⟨S1x128, .f32⟩
  | .hbm, ⟨33, _⟩ => ⟨S1000000x128, .f32⟩
  | .hbm, ⟨34, _⟩ => ⟨S1000000x128, .f32⟩
  | .hbm, ⟨35, _⟩ => ⟨S_, .f32⟩
  | .hbm, ⟨36, _⟩ => ⟨S1000000x128, .f32⟩
  | .hbm, ⟨37, _⟩ => ⟨S1000000x128, .f32⟩
  | .hbm, ⟨38, _⟩ => ⟨S1000000x64, .f32⟩
  | .hbm, ⟨39, _⟩ => ⟨S1x64, .f32⟩
  | .hbm, ⟨40, _⟩ => ⟨S1000000x64, .f32⟩
  | .hbm, ⟨41, _⟩ => ⟨S1000000x64, .f32⟩
  | .hbm, ⟨42, _⟩ => ⟨S_, .f32⟩
  | .hbm, ⟨43, _⟩ => ⟨S100000x64, .f32⟩
  | .hbm, ⟨44, _⟩ => ⟨S1000000x1, .i32⟩
  | .hbm, ⟨45, _⟩ => ⟨S100000x64, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .f32⟩
  | .hbm, ⟨54, _⟩ => ⟨S100000x64, .f32⟩
  | .hbm, ⟨55, _⟩ => ⟨S1x64, .f32⟩
  | .hbm, ⟨56, _⟩ => ⟨S100000x64, .f32⟩
  | .hbm, ⟨57, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call1_cst : Ref sig .tc := ⟨.hbm, 51, rfl⟩
abbrev main_call1_v0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x64_S1000000x192_d1 : Shape.Concatenates [S1000000x64, S1000000x64, S1000000x64] S1000000x192 1
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S100000x64 : S_.BroadcastsInDim S100000x64 (![] : Fin 0 → Fin S100000x64.rank)
  concatenates_S100000x64_S100000x64_S100000x128_d1 : Shape.Concatenates [S100000x64, S100000x64] S100000x128 1
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1x64_S100000x64_0_1 : S1x64.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  dot_S1000000x192_S192x128_S1000000x128_1_0_0_1_n_n_wf : DotDims.WF S1000000x192 S192x128 S1000000x128 [1] [0] [0] [1] [] []
  dot_S1000000x128_S128x64_S1000000x64_1_0_0_1_n_n_wf : DotDims.WF S1000000x128 S128x64 S1000000x64 [1] [0] [0] [1] [] []
  scatter_S100000x64_S1000000x1_S1000000x64_1_0_0_1_wf : ScatterDims.WF S100000x64 S1000000x1 S1000000x64 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x192_S192x128_S1000000x128_1_0_0_1_n_n : DotDims S1000000x192 S192x128 S1000000x128 where
  lhsContracting := [1]
  rhsContracting := [0]
  lhsNonContracting := [0]
  rhsNonContracting := [1]
  lhsBatch := []
  rhsBatch := []
  wf := dot_S1000000x192_S192x128_S1000000x128_1_0_0_1_n_n_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's whole run, with its result named.

  The program is two kernel regions among stretches of host operations.  Its run leaves every unscoped buffer
  at the contents of the last boundary: the launch memory taken through the first stretch, the first region's
  write-backs, the second stretch and the second region's write-backs.  Read at the result buffer this is the
  program's value; read at an argument it is the argument as launched.
-/
import proofs.«160199_j7653631722048_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result buffer at the last
    boundary's contents and every argument as launched. -/
theorem run_result : θ_run defs (onTc (τ := τ) (main (F := F))) ⟨m, fun _ => 0, ρ⟩ (fun r => ∀ c : Dev nD,
      r.2.mem ((c.tc : Thread nD τ).loc main_v29) = W4 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v29 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.Whole

end
-- ==== Proof.MlpSpec.lean ====
/-
  The two networks of the interaction step, as functions of whole arrays on the extended reals.

  A row of the edge network: the hidden row is the sum of three 64-wide products (the edge's own features, the
  receiving node's, the sending node's, each against its own 64 rows of the first weight matrix) plus the bias;
  it is clipped below at zero and taken through the second weight matrix, plus the second bias.  A row of the node
  network is the same with two 64-wide products (the aggregated edge outputs and the node's own features).
  Each output row depends on the same row of the row-indexed operands only, so a block of rows of the output is
  the same function of the blocks of rows of the operands.

  The law joining a product against a matrix of stacked row blocks to the sum of the products against the blocks
  is that a finite sum over an index set cut in two is the sum of the two parts: associativity and commutativity
  of addition on the extended reals, with no finiteness assumed.
-/
import Idealize.ShloMosaic.PureOps.Ideal
import Idealize.ShloMosaic.Lib.ValueIdx

noncomputable section

namespace Cert.Mlp

open Idealize.ShloMosaic Idealize.ShloMosaic.ValueIdx

/-- The float word zero as an extended real (never evaluated: the same word stands on both sides). -/
abbrev z32 : EReal := Ideal.ofBits .f32 0x00000000#32

/-- A hidden row clipped at zero, through the second layer: sum over the 128 hidden units, plus the bias. -/
def outRow (hid : Fin 128 → EReal) (w2 : (⟨2, ![128, 64]⟩ : Shape).Idx → EReal)
    (b2 : (⟨2, ![1, 64]⟩ : Shape).Idx → EReal) (j : Fin 64) : EReal :=
  (∑ h : Fin 128, max (hid h) z32 * w2 (ix2 h j)) + b2 (ix2 0 j)

/-- Row `e` of the edge network's hidden layer before clipping. -/
def edgeHid {n : Nat} (ef rf sf : (⟨2, ![n, 64]⟩ : Shape).Idx → EReal)
    (we wr ws : (⟨2, ![64, 128]⟩ : Shape).Idx → EReal) (b1 : (⟨2, ![1, 128]⟩ : Shape).Idx → EReal)
    (e : Fin n) (h : Fin 128) : EReal :=
  (((∑ k : Fin 64, ef (ix2 e k) * we (ix2 k h)) + (∑ k : Fin 64, rf (ix2 e k) * wr (ix2 k h)))
    + (∑ k : Fin 64, sf (ix2 e k) * ws (ix2 k h))) + b1 (ix2 0 h)

/-- The edge network on `n` rows. -/
def edgeOut {n : Nat} (ef rf sf : (⟨2, ![n, 64]⟩ : Shape).Idx → EReal)
    (we wr ws : (⟨2, ![64, 128]⟩ : Shape).Idx → EReal) (b1 : (⟨2, ![1, 128]⟩ : Shape).Idx → EReal)
    (w2 : (⟨2, ![128, 64]⟩ : Shape).Idx → EReal) (b2 : (⟨2, ![1, 64]⟩ : Shape).Idx → EReal) :
    (⟨2, ![n, 64]⟩ : Shape).Idx → EReal :=
  fun i => outRow (edgeHid ef rf sf we wr ws b1 (i 0)) w2 b2 (i 1)

/-- Row `p` of the node network's hidden layer before clipping. -/
def nodeHid {n : Nat} (ag nd : (⟨2, ![n, 64]⟩ : Shape).Idx → EReal)
    (wa wn : (⟨2, ![64, 128]⟩ : Shape).Idx → EReal) (b1 : (⟨2, ![1, 128]⟩ : Shape).Idx → EReal)
    (p : Fin n) (h : Fin 128) : EReal :=
  ((∑ k : Fin 64, ag (ix2 p k) * wa (ix2 k h)) + (∑ k : Fin 64, nd (ix2 p k) * wn (ix2 k h))) + b1 (ix2 0 h)

/-- The node network on `n` rows. -/
def nodeOut {n : Nat} (ag nd : (⟨2, ![n, 64]⟩ : Shape).Idx → EReal)
    (wa wn : (⟨2, ![64, 128]⟩ : Shape).Idx → EReal) (b1 : (⟨2, ![1, 128]⟩ : Shape).Idx → EReal)
    (w2 : (⟨2, ![128, 64]⟩ : Shape).Idx → EReal) (b2 : (⟨2, ![1, 64]⟩ : Shape).Idx → EReal) :
    (⟨2, ![n, 64]⟩ : Shape).Idx → EReal :=
  fun i => outRow (nodeHid ag nd wa wn b1 (i 0)) w2 b2 (i 1)

theorem edgeOut_ix2 {n : Nat} (ef rf sf : (⟨2, ![n, 64]⟩ : Shape).Idx → EReal)
    (we wr ws : (⟨2, ![64, 128]⟩ : Shape).Idx → EReal) (b1 : (⟨2, ![1, 128]⟩ : Shape).Idx → EReal)
    (w2 : (⟨2, ![128, 64]⟩ : Shape).Idx → EReal) (b2 : (⟨2, ![1, 64]⟩ : Shape).Idx → EReal) (e : Fin n) (j : Fin 64) :
    edgeOut ef rf sf we wr ws b1 w2 b2 (ix2 e j) = outRow (edgeHid ef rf sf we wr ws b1 e) w2 b2 j := rfl

theorem nodeOut_ix2 {n : Nat} (ag nd : (⟨2, ![n, 64]⟩ : Shape).Idx → EReal)
    (wa wn : (⟨2, ![64, 128]⟩ : Shape).Idx → EReal) (b1 : (⟨2, ![1, 128]⟩ : Shape).Idx → EReal)
    (w2 : (⟨2, ![128, 64]⟩ : Shape).Idx → EReal) (b2 : (⟨2, ![1, 64]⟩ : Shape).Idx → EReal) (p : Fin n) (j : Fin 64) :
    nodeOut ag nd wa wn b1 w2 b2 (ix2 p j) = outRow (nodeHid ag nd wa wn b1 p) w2 b2 j := rfl

/-- A block of rows: where the row-indexed operands of a block agree, row by row, with those of the whole
    arrays, the edge network's output on the block is its output on the arrays at that row. -/
theorem edgeOut_block {n N : Nat} (A0 A1 A2 : (⟨2, ![N, 64]⟩ : Shape).Idx → EReal)
    (B0 B1 B2 : (⟨2, ![n, 64]⟩ : Shape).Idx → EReal)
    (we wr ws : (⟨2, ![64, 128]⟩ : Shape).Idx → EReal) (b1 : (⟨2, ![1, 128]⟩ : Shape).Idx → EReal)
    (w2 : (⟨2, ![128, 64]⟩ : Shape).Idx → EReal) (b2 : (⟨2, ![1, 64]⟩ : Shape).Idx → EReal)
    (r : Fin n) (e : Fin N) (j : Fin 64)
    (h0 : ∀ k : Fin 64, B0 (ix2 r k) = A0 (ix2 e k)) (h1 : ∀ k : Fin 64, B1 (ix2 r k) = A1 (ix2 e k))
    (h2 : ∀ k : Fin 64, B2 (ix2 r k) = A2 (ix2 e k)) :
    edgeOut B0 B1 B2 we wr ws b1 w2 b2 (ix2 r j) = edgeOut A0 A1 A2 we wr ws b1 w2 b2 (ix2 e j) := by
  rw [edgeOut_ix2, edgeOut_ix2]
  have hh : edgeHid B0 B1 B2 we wr ws b1 r = edgeHid A0 A1 A2 we wr ws b1 e := by
    funext h; unfold edgeHid; simp only [h0, h1, h2]
  rw [hh]

/-- The same for the node network. -/
theorem nodeOut_block {n N : Nat} (A0 A1 : (⟨2, ![N, 64]⟩ : Shape).Idx → EReal)
    (B0 B1 : (⟨2, ![n, 64]⟩ : Shape).Idx → EReal)
    (wa wn : (⟨2, ![64, 128]⟩ : Shape).Idx → EReal) (b1 : (⟨2, ![1, 128]⟩ : Shape).Idx → EReal)
    (w2 : (⟨2, ![128, 64]⟩ : Shape).Idx → EReal) (b2 : (⟨2, ![1, 64]⟩ : Shape).Idx → EReal)
    (r : Fin n) (p : Fin N) (j : Fin 64)
    (h0 : ∀ k : Fin 64, B0 (ix2 r k) = A0 (ix2 p k)) (h1 : ∀ k : Fin 64, B1 (ix2 r k) = A1 (ix2 p k)) :
    nodeOut B0 B1 wa wn b1 w2 b2 (ix2 r j) = nodeOut A0 A1 wa wn b1 w2 b2 (ix2 p j) := by
  rw [nodeOut_ix2, nodeOut_ix2]
  have hh : nodeHid B0 B1 wa wn b1 r = nodeHid A0 A1 wa wn b1 p := by
    funext h; unfold nodeHid; simp only [h0, h1]
  rw [hh]

/-- A sum over 128 indices is the sum over the first 64 plus the sum over the last 64. -/
theorem sum_128 (f : Fin 128 → EReal) :
    ∑ k : Fin 128, f k = (∑ k : Fin 64, f (Fin.castAdd 64 k)) + (∑ k : Fin 64, f (Fin.natAdd 64 k)) :=
  Fin.sum_univ_add (M := EReal) (a := 64) (b := 64) f

/-- A sum over 192 indices is the sum of its three 64-index thirds, added left to right. -/
theorem sum_192 (f : Fin 192 → EReal) :
    ∑ k : Fin 192, f k
      = ((∑ k : Fin 64, f (Fin.castAdd 64 (Fin.castAdd 64 k))) + (∑ k : Fin 64, f (Fin.castAdd 64 (Fin.natAdd 64 k))))
        + (∑ k : Fin 64, f (Fin.natAdd 128 k)) := by
  rw [Fin.sum_univ_add (M := EReal) (a := 128) (b := 64) f, Fin.sum_univ_add (M := EReal) (a := 64) (b := 64)]

end Cert.Mlp

end
-- ==== Proof.LibRowDot.lean ====
/-
  A rows-by-columns product read at an index.

  For the plain dimension numbers of an [M, K] by [K, N] product (the left operand contracted on its axis 1, the
  right on its axis 0, no batch axis) the sum over the contraction index of the operands' products at output
  element (p, q) is the sum over k < K of left (p, k) times right (k, q).  Both a matmul into a zero
  accumulator and the host's dot_general are that sum on the extended reals.
-/
import Idealize.ShloMosaic.PureOps.Ideal.Laws
import Idealize.ShloMosaic.Lib.ValueIdx

noncomputable section

namespace Idealize.ShloMosaic.RowDot

open Idealize.ShloMosaic Idealize.ShloMosaic.ValueIdx

variable {M K N : Nat}

/-- The contraction's sum of a plain product at output element j, re-indexed by the contracted coordinate. -/
theorem plain_sum (l : (⟨2, ![M, K]⟩ : Shape).Idx → EReal) (r : (⟨2, ![K, N]⟩ : Shape).Idx → EReal)
    (j : (⟨2, ![M, N]⟩ : Shape).Idx) :
    ∑ k : (DotDims.plain M K N).contr.Idx,
        l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => rfl)
  exact congr (congrArg (fun a b : EReal => a * b) (congrArg l el)) (congrArg r er)

/-- A matmul into the zero accumulator, read at (p, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, (l (ix2 p k) : EReal) * (r (ix2 k q) : EReal) := by
  rw [Ideal.matmul_constant_zero_apply]
  exact plain_sum (M := M) (K := K) (N := N) l r (ix2 p q)

/-- The host's dot_general, read at (p, q). -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q)
      = ∑ k : Fin K, (l (ix2 p k) : EReal) * (r (ix2 k q) : EReal) := by
  rw [Ideal.dotGeneral_apply]
  exact plain_sum (M := M) (K := K) (N := N) l r (ix2 p q)

end Idealize.ShloMosaic.RowDot

end
-- ==== Proof.EdgePayload.lean ====
/-
  The edge kernel's body on a block of 8000 rows, read index by index.

  The body rounds its operands to a narrower format (the identity on the extended reals), takes three products
  of [8000, 64] blocks against [64, 128] weight blocks into zero accumulators, adds them left to right, adds the
  bias row, clips at zero, takes the product against the [128, 64] second weight matrix and adds the second bias
  row.  Read at row r and column q this is the edge network's row function of row r of the three row blocks.
-/
import proofs.«160199_j7653631722048_2_alg».proof.Proof.Gen.KernelIdeal.Skeleton
import proofs.«160199_j7653631722048_2_alg».proof.Proof.MlpSpec
import proofs.«160199_j7653631722048_2_alg».proof.Proof.LibRowDot
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx Cert.Mlp

/-- A product of an [8000, 64] block against a [64, 128] block into the zero accumulator, at (p, h). -/
theorem mm_8000_64_128 {φ₁ φ₂ : FTy} (l : FVec Ideal S8000x64 φ₁) (r : FVec Ideal S64x128 φ₂) (p : Fin 8000) (h : Fin 128) :
    matmul dot_S8000x64_S64x128_S8000x128_1_0_0_1_n_n none l r (constant S8000x128 .f32 0x00000000#32) (ix2 p h)
      = ∑ k : Fin 64, (l (ix2 p k) : EReal) * (r (ix2 k h) : EReal) :=
  RowDot.matmul_zero_apply (M := 8000) (K := 64) (N := 128) none l r p h

/-- A product of an [8000, 128] block against a [128, 64] block into the zero accumulator, at (p, q). -/
theorem mm_8000_128_64 {φ₁ φ₂ : FTy} (l : FVec Ideal S8000x128 φ₁) (r : FVec Ideal S128x64 φ₂) (p : Fin 8000) (q : Fin 64) :
    matmul dot_S8000x128_S128x64_S8000x64_1_0_0_1_n_n none l r (constant S8000x64 .f32 0x00000000#32) (ix2 p q)
      = ∑ h : Fin 128, (l (ix2 p h) : EReal) * (r (ix2 h q) : EReal) :=
  RowDot.matmul_zero_apply (M := 8000) (K := 128) (N := 64) none l r p q

/-- The hidden bias row spread over the 8000 rows, at (p, h). -/
theorem bias_8000_128 (v : FVec Ideal S1x128 .f32) (p : Fin 8000) (h : Fin 128) :
    broadcastTo S8000x128 v broadcasts_S1x128_S8000x128 (ix2 p h) = v (ix2 0 h) :=
  broadcastTo_1b_ab_apply v broadcasts_S1x128_S8000x128 p h

/-- The output bias row spread over the 8000 rows, at (p, q). -/
theorem bias_8000_64 (v : FVec Ideal S1x64 .f32) (p : Fin 8000) (q : Fin 64) :
    broadcastTo S8000x64 v broadcasts_S1x64_S8000x64 (ix2 p q) = v (ix2 0 q) :=
  broadcastTo_1b_ab_apply v broadcasts_S1x64_S8000x64 p q

/-- The body's stored value is the edge network on the block. -/
theorem edge_payload (x0 : Vec Ideal S8000x64 .f32) (x1 x2 : Vec Ideal S8000x64 .bf16)
    (x3 x4 x5 : Vec Ideal S64x128 .f32) (x6 : Vec Ideal S1x128 .f32) (x7 : Vec Ideal S128x64 .f32) (x8 : Vec Ideal S1x64 .f32) :
    k0_pay1 (F := Ideal) x0 x1 x2 x3 x4 x5 x6 x7 x8 = edgeOut (n := 8000) x0 x1 x2 x3 x4 x5 x6 x7 x8 := by
  funext j
  obtain ⟨p, q, rfl⟩ : ∃ (p : Fin 8000) (q : Fin 64), j = ix2 p q := ⟨j 0, j 1, eq_ix2 j⟩
  unfold k0_pay1
  simp only [addf_apply, maximumf_apply, truncf_apply, broadcast_apply, mm_8000_64_128, mm_8000_128_64,
    bias_8000_128, bias_8000_64, shapeCast_self, Ideal.ofBits_def]
  rfl

end Cert.KernelIdeal.Pay

end
-- ==== Proof.EdgeRegion.lean ====
/-
  The first region's output array as one function of the arrays it is entered with.

  The grid has 125 points; point t stages rows 8000 t .. 8000 t + 7999 of the three row-indexed operands and of
  the output, and the six weight and bias operands whole.  What point t writes back is the edge network on those
  blocks, which is rows 8000 t .. 8000 t + 7999 of the edge network on the whole arrays; the 125 blocks cover
  the [1000000, 64] output.
-/
import proofs.«160199_j7653631722048_2_alg».proof.Proof.Gen.KernelIdeal.Frame
import proofs.«160199_j7653631722048_2_alg».proof.Proof.EdgePayload
import Idealize.ShloMosaic.Lib.Pipeline.Value

noncomputable section

namespace Cert.KernelIdeal.EdgeRegion

open Cert.KernelIdeal Cert.KernelIdeal.Gen Idealize.ShloMosaic Idealize.ShloMosaic.TcCoe Idealize.SL.Sem
open Idealize.ShloMosaic.ValueIdx Cert.Mlp
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The output array the region should leave: the edge network on the arrays the region is entered with. -/
abbrev edgeArr (c : Dev nD) : S1000000x64.Idx → EReal :=
  edgeOut (n := 1000000) (V c main_arg1) (V c main_v7) (V c main_v15) (V c main_v16) (V c main_v17) (V c main_v18)
    (V c main_v19) (V c main_arg6) (V c main_v20)

/-- The index maps over the grid: the row-indexed windows and the output move one block of rows per point, the
    weight and bias windows stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- A row-indexed input window's block at point `t` holds rows `8000 t ..` of its array (windows 0, 1, 2). -/
theorem rows0 (c : Dev nD) (t : Fin cfg0.N) (x : S8000x64.Idx) (k' : S1000000x64.Idx)
    (hk0 : (k' 0).val = 8000 * t.val + (x 0).val) (hk1 : (k' 1).val = (x 1).val) :
    (iblk0 V c 0 t : Vec Ideal S8000x64 .f32) x = (V c main_arg1 : S1000000x64.Idx → EReal) k' := by
  obtain ⟨e0, e1, -⟩ := idx_facts t
  unfold iblk0
  rw [View.read_apply]
  show V c main_arg1 _ = V c main_arg1 _
  refine congrArg (V c main_arg1) (funext fun a => Fin.ext ?_)
  match a with
  | ⟨0, _⟩ => show win0_0.index t 0 * 8000 + 1 * (x 0).val = (k' 0).val; rw [e0, hk0]; omega
  | ⟨1, _⟩ => show win0_0.index t 1 * 64 + 1 * (x 1).val = (k' 1).val; rw [e1, hk1]; omega

theorem rows1 (c : Dev nD) (t : Fin cfg0.N) (x : S8000x64.Idx) (k' : S1000000x64.Idx)
    (hk0 : (k' 0).val = 8000 * t.val + (x 0).val) (hk1 : (k' 1).val = (x 1).val) :
    (iblk0 V c 1 t : Vec Ideal S8000x64 .bf16) x = (V c main_v7 : S1000000x64.Idx → EReal) k' := by
  obtain ⟨-, -, e0, e1, -⟩ := idx_facts t
  unfold iblk0
  rw [View.read_apply]
  show V c main_v7 _ = V c main_v7 _
  refine congrArg (V c main_v7) (funext fun a => Fin.ext ?_)
  match a with
  | ⟨0, _⟩ => show win0_1.index t 0 * 8000 + 1 * (x 0).val = (k' 0).val; rw [e0, hk0]; omega
  | ⟨1, _⟩ => show win0_1.index t 1 * 64 + 1 * (x 1).val = (k' 1).val; rw [e1, hk1]; omega

theorem rows2 (c : Dev nD) (t : Fin cfg0.N) (x : S8000x64.Idx) (k' : S1000000x64.Idx)
    (hk0 : (k' 0).val = 8000 * t.val + (x 0).val) (hk1 : (k' 1).val = (x 1).val) :
    (iblk0 V c 2 t : Vec Ideal S8000x64 .bf16) x = (V c main_v15 : S1000000x64.Idx → EReal) k' := by
  obtain ⟨-, -, -, -, e0, e1, -⟩ := idx_facts t
  unfold iblk0
  rw [View.read_apply]
  show V c main_v15 _ = V c main_v15 _
  refine congrArg (V c main_v15) (funext fun a => Fin.ext ?_)
  match a with
  | ⟨0, _⟩ => show win0_2.index t 0 * 8000 + 1 * (x 0).val = (k' 0).val; rw [e0, hk0]; omega
  | ⟨1, _⟩ => show win0_2.index t 1 * 64 + 1 * (x 1).val = (k' 1).val; rw [e1, hk1]; omega

/-- A weight or bias window's block at any point is its whole array (windows 3 to 8). -/
theorem whole3 (c : Dev nD) (t : Fin cfg0.N) : (iblk0 V c 3 t : Vec Ideal S64x128 .f32) = (V c main_v16 : S64x128.Idx → EReal) := by
  obtain ⟨-, -, -, -, -, -, -, -, e0, e1, -⟩ := idx_facts t
  funext x
  unfold iblk0
  rw [View.read_apply]
  show V c main_v16 _ = V c main_v16 _
  refine congrArg (V c main_v16) (funext fun a => Fin.ext ?_)
  match a with
  | ⟨0, _⟩ => show win0_3.index t 0 * 64 + 1 * (x 0).val = (x 0).val; rw [e0]; omega
  | ⟨1, _⟩ => show win0_3.index t 1 * 128 + 1 * (x 1).val = (x 1).val; rw [e1]; omega

theorem whole4 (c : Dev nD) (t : Fin cfg0.N) : (iblk0 V c 4 t : Vec Ideal S64x128 .f32) = (V c main_v17 : S64x128.Idx → EReal) := by
  obtain ⟨-, -, -, -, -, -, -, -, -, -, e0, e1, -⟩ := idx_facts t
  funext x
  unfold iblk0
  rw [View.read_apply]
  show V c main_v17 _ = V c main_v17 _
  refine congrArg (V c main_v17) (funext fun a => Fin.ext ?_)
  match a with
  | ⟨0, _⟩ => show win0_4.index t 0 * 64 + 1 * (x 0).val = (x 0).val; rw [e0]; omega
  | ⟨1, _⟩ => show win0_4.index t 1 * 128 + 1 * (x 1).val = (x 1).val; rw [e1]; omega

theorem whole5 (c : Dev nD) (t : Fin cfg0.N) : (iblk0 V c 5 t : Vec Ideal S64x128 .f32) = (V c main_v18 : S64x128.Idx → EReal) := by
  obtain ⟨-, -, -, -, -, -, -, -, -, -, -, -, e0, e1, -⟩ := idx_facts t
  funext x
  unfold iblk0
  rw [View.read_apply]
  show V c main_v18 _ = V c main_v18 _
  refine congrArg (V c main_v18) (funext fun a => Fin.ext ?_)
  match a with
  | ⟨0, _⟩ => show win0_5.index t 0 * 64 + 1 * (x 0).val = (x 0).val; rw [e0]; omega
  | ⟨1, _⟩ => show win0_5.index t 1 * 128 + 1 * (x 1).val = (x 1).val; rw [e1]; omega

theorem whole6 (c : Dev nD) (t : Fin cfg0.N) : (iblk0 V c 6 t : Vec Ideal S1x128 .f32) = (V c main_v19 : S1x128.Idx → EReal) := by
  obtain ⟨-, -, -, -, -, -, -, -, -, -, -, -, -, -, e0, e1, -⟩ := idx_facts t
  funext x
  unfold iblk0
  rw [View.read_apply]
  show V c main_v19 _ = V c main_v19 _
  refine congrArg (V c main_v19) (funext fun a => Fin.ext ?_)
  match a with
  | ⟨0, _⟩ => show win0_6.index t 0 * 1 + 1 * (x 0).val = (x 0).val; rw [e0]; omega
  | ⟨1, _⟩ => show win0_6.index t 1 * 128 + 1 * (x 1).val = (x 1).val; rw [e1]; omega

theorem whole7 (c : Dev nD) (t : Fin cfg0.N) : (iblk0 V c 7 t : Vec Ideal S128x64 .f32) = (V c main_arg6 : S128x64.Idx → EReal) := by
  obtain ⟨-, -, -, -, -, -, -, -, -, -, -, -, -, -, -, -, e0, e1, -⟩ := idx_facts t
  funext x
  unfold iblk0
  rw [View.read_apply]
  show V c main_arg6 _ = V c main_arg6 _
  refine congrArg (V c main_arg6) (funext fun a => Fin.ext ?_)
  match a with
  | ⟨0, _⟩ => show win0_7.index t 0 * 128 + 1 * (x 0).val = (x 0).val; rw [e0]; omega
  | ⟨1, _⟩ => show win0_7.index t 1 * 64 + 1 * (x 1).val = (x 1).val; rw [e1]; omega

theorem whole8 (c : Dev nD) (t : Fin cfg0.N) : (iblk0 V c 8 t : Vec Ideal S1x64 .f32) = (V c main_v20 : S1x64.Idx → EReal) := by
  obtain ⟨-, -, -, -, -, -, -, -, -, -, -, -, -, -, -, -, -, -, e0, e1⟩ := idx_facts t
  funext x
  unfold iblk0
  rw [View.read_apply]
  show V c main_v20 _ = V c main_v20 _
  refine congrArg (V c main_v20) (funext fun a => Fin.ext ?_)
  match a with
  | ⟨0, _⟩ => show win0_8.index t 0 * 1 + 1 * (x 0).val = (x 0).val; rw [e0]; omega
  | ⟨1, _⟩ => show win0_8.index t 1 * 64 + 1 * (x 1).val = (x 1).val; rw [e1]; omega

/-- What point `t` writes back is block `t` of the edge network on the whole arrays. -/
theorem flushed_eq (c : Dev nD) (t : Fin cfg0.N) :
    (dat0 (F := Ideal) V c).flushed 9 t = ((cfg0.win 9).blk t).view.read (Elt Ideal) (edgeArr V c) := by
  show (cfg0.win 9).cut (grid0.coords t) ((dat0 (F := Ideal) V c).after 9 t) = _
  rw [after0_9]
  unfold out0_9
  rw [View.canon_unit_zero hz]
  simp only [View.ld_unit_zero (S := S8000x64) hz, View.ld_unit_zero (S := S64x128) hz, View.ld_unit_zero (S := S1x128) hz,
    View.ld_unit_zero (S := S128x64) hz, View.ld_unit_zero (S := S1x64) hz]
  rw [Pay.edge_payload, whole3 V c t, whole4 V c t, whole5 V c t, whole6 V c t, whole7 V c t, whole8 V c t]
  funext y
  have hy0 : (y 0).val < 8000 := (y 0).isLt
  have hy1 : (y 1).val < 64 := (y 1).isLt
  have hN : cfg0.N = 125 := N_0
  have ht : t.val < 125 := hN ▸ t.isLt
  obtain ⟨-, -, -, -, -, -, e0, e1, -⟩ := idx_facts t
  have e1' : (win0 9).xinj (grid0.coords t) y = ix2 (⟨(y 0).val, hy0⟩ : Fin 8000) (⟨(y 1).val, hy1⟩ : Fin 64) :=
    funext fun a => Fin.ext (by
      match a with
      | ⟨0, _⟩ => rfl
      | ⟨1, _⟩ => rfl)
  have e2' : ((View.whole main_v21).slice ((win0 9).rect t)).emb y
      = ix2 (⟨8000 * t.val + (y 0).val, by omega⟩ : Fin 1000000) (⟨(y 1).val, hy1⟩ : Fin 64) :=
    funext fun a => Fin.ext (by
      match a with
      | ⟨0, _⟩ => show win0_9.index t 0 * 8000 + 1 * (y 0).val = 8000 * t.val + (y 0).val; rw [e0]; omega
      | ⟨1, _⟩ => show win0_9.index t 1 * 64 + 1 * (y 1).val = (y 1).val; rw [e1]; omega)
  rw [View.read_apply]
  show edgeOut (iblk0 V c 0 t) (iblk0 V c 1 t) (iblk0 V c 2 t) (V c main_v16) (V c main_v17) (V c main_v18) (V c main_v19)
      (V c main_arg6) (V c main_v20) ((win0 9).xinj (grid0.coords t) y)
    = edgeArr V c (((View.whole main_v21).slice ((win0 9).rect t)).emb y)
  rw [e1', e2']
  exact edgeOut_block (V c main_arg1) (V c main_v7) (V c main_v15) (iblk0 V c 0 t) (iblk0 V c 1 t) (iblk0 V c 2 t)
    (V c main_v16) (V c main_v17) (V c main_v18) (V c main_v19) (V c main_arg6) (V c main_v20) _ _ _
    (fun k => rows0 V c t _ _ rfl rfl) (fun k => rows1 V c t _ _ rfl rfl) (fun k => rows2 V c t _ _ rfl rfl)

/-- An index of the output array is in point `t`'s block iff each coordinate is in the block's range. -/
theorem mem_blk (t : Fin cfg0.N) (i : S1000000x64.Idx) :
    i ∈ ((cfg0.win 9).blk t).view.set ↔ ∀ a : Fin 2, win0_9.index t a * S8000x64.size a ≤ (i a).val ∧ (i a).val < win0_9.index t a * S8000x64.size a + S8000x64.size a := by
  show i ∈ ((View.whole main_v21).slice (win0_9.rect t)).set ↔ _
  rw [View.set_slice_whole, Rect.mem_set_unit]
  exact Iff.rfl

/-- The output array after the region: the edge network on the arrays the region was entered with. -/
theorem final (c : Dev nD) : (dat0 (F := Ideal) V c).arrAt 9 cfg0.N = edgeArr V c :=
  (dat0 (F := Ideal) V c).arrAt_eq_of_cover 9 (edgeArr V c) (fun t _ => flushed_eq V c t) fun i => by
    have hi0 : (i 0).val < 1000000 := (i 0).isLt
    have hi1 : (i 1).val < 64 := (i 1).isLt
    have hN : cfg0.N = 125 := N_0
    have hq : (i 0).val / 8000 < cfg0.N := by rw [hN]; omega
    refine ⟨⟨(i 0).val / 8000, hq⟩, flush0_9 _, ?_⟩
    rw [mem_blk]
    obtain ⟨-, -, -, -, -, -, e0, e1, -⟩ := idx_facts ⟨(i 0).val / 8000, hq⟩
    intro a
    match a with
    | ⟨0, _⟩ =>
      show win0_9.index ⟨(i 0).val / 8000, hq⟩ 0 * 8000 ≤ (i 0).val ∧ (i 0).val < win0_9.index ⟨(i 0).val / 8000, hq⟩ 0 * 8000 + 8000
      rw [e0]; show (i 0).val / 8000 * 8000 ≤ (i 0).val ∧ (i 0).val < (i 0).val / 8000 * 8000 + 8000; omega
    | ⟨1, _⟩ =>
      show win0_9.index ⟨(i 0).val / 8000, hq⟩ 1 * 64 ≤ (i 1).val ∧ (i 1).val < win0_9.index ⟨(i 0).val / 8000, hq⟩ 1 * 64 + 64
      rw [e1]; omega

end Cert.KernelIdeal.EdgeRegion

end
-- ==== Proof.NodePayload.lean ====
/-
  The node kernel's body on a block of 10000 rows, read index by index.

  The body rounds its operands to a narrower format (the identity on the extended reals), takes two products of
  [10000, 64] blocks (the aggregated edge outputs and the nodes' own features) against [64, 128] weight blocks
  into zero accumulators, adds them, adds the bias row, clips at zero, takes the product against the [128, 64]
  second weight matrix and adds the second bias row.  Read at row r and column q this is the node network's row
  function of row r of the two row blocks.
-/
import proofs.«160199_j7653631722048_2_alg».proof.Proof.Gen.KernelIdeal.Skeleton
import proofs.«160199_j7653631722048_2_alg».proof.Proof.MlpSpec
import proofs.«160199_j7653631722048_2_alg».proof.Proof.LibRowDot
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx Cert.Mlp

/-- A product of a [10000, 64] block against a [64, 128] block into the zero accumulator, at (p, h). -/
theorem mm_10000_64_128 {φ₁ φ₂ : FTy} (l : FVec Ideal S10000x64 φ₁) (r : FVec Ideal S64x128 φ₂) (p : Fin 10000) (h : Fin 128) :
    matmul dot_S10000x64_S64x128_S10000x128_1_0_0_1_n_n none l r (constant S10000x128 .f32 0x00000000#32) (ix2 p h)
      = ∑ k : Fin 64, (l (ix2 p k) : EReal) * (r (ix2 k h) : EReal) :=
  RowDot.matmul_zero_apply (M := 10000) (K := 64) (N := 128) none l r p h

/-- A product of a [10000, 128] block against a [128, 64] block into the zero accumulator, at (p, q). -/
theorem mm_10000_128_64 {φ₁ φ₂ : FTy} (l : FVec Ideal S10000x128 φ₁) (r : FVec Ideal S128x64 φ₂) (p : Fin 10000) (q : Fin 64) :
    matmul dot_S10000x128_S128x64_S10000x64_1_0_0_1_n_n none l r (constant S10000x64 .f32 0x00000000#32) (ix2 p q)
      = ∑ h : Fin 128, (l (ix2 p h) : EReal) * (r (ix2 h q) : EReal) :=
  RowDot.matmul_zero_apply (M := 10000) (K := 128) (N := 64) none l r p q

/-- The hidden bias row spread over the 10000 rows, at (p, h). -/
theorem bias_10000_128 (v : FVec Ideal S1x128 .f32) (p : Fin 10000) (h : Fin 128) :
    broadcastTo S10000x128 v broadcasts_S1x128_S10000x128 (ix2 p h) = v (ix2 0 h) :=
  broadcastTo_1b_ab_apply v broadcasts_S1x128_S10000x128 p h

/-- The output bias row spread over the 10000 rows, at (p, q). -/
theorem bias_10000_64 (v : FVec Ideal S1x64 .f32) (p : Fin 10000) (q : Fin 64) :
    broadcastTo S10000x64 v broadcasts_S1x64_S10000x64 (ix2 p q) = v (ix2 0 q) :=
  broadcastTo_1b_ab_apply v broadcasts_S1x64_S10000x64 p q

/-- The body's stored value is the node network on the block. -/
theorem node_payload (x0 x1 : Vec Ideal S10000x64 .f32) (x2 x3 : Vec Ideal S64x128 .f32) (x4 : Vec Ideal S1x128 .f32)
    (x5 : Vec Ideal S128x64 .f32) (x6 : Vec Ideal S1x64 .f32) :
    k1_pay1 (F := Ideal) x0 x1 x2 x3 x4 x5 x6 = nodeOut (n := 10000) x0 x1 x2 x3 x4 x5 x6 := by
  funext j
  obtain ⟨p, q, rfl⟩ : ∃ (p : Fin 10000) (q : Fin 64), j = ix2 p q := ⟨j 0, j 1, eq_ix2 j⟩
  unfold k1_pay1
  simp only [addf_apply, maximumf_apply, truncf_apply, broadcast_apply, mm_10000_64_128, mm_10000_128_64,
    bias_10000_128, bias_10000_64, shapeCast_self, Ideal.ofBits_def]
  rfl

end Cert.KernelIdeal.Pay

end
-- ==== Proof.NodeRegion.lean ====
/-
  The second region's output array as one function of the arrays it is entered with.

  The grid has 10 points; point t stages rows 10000 t .. 10000 t + 9999 of the two row-indexed operands (the
  aggregated edge outputs and the node features) and of the output, and the five weight and bias operands whole.
  What point t writes back is the node network on those blocks, which is rows 10000 t .. 10000 t + 9999 of the
  node network on the whole arrays; the 10 blocks cover the [100000, 64] output.
-/
import proofs.«160199_j7653631722048_2_alg».proof.Proof.Gen.KernelIdeal.Frame
import proofs.«160199_j7653631722048_2_alg».proof.Proof.NodePayload
import Idealize.ShloMosaic.Lib.Pipeline.Value

noncomputable section

namespace Cert.KernelIdeal.NodeRegion

open Cert.KernelIdeal Cert.KernelIdeal.Gen Idealize.ShloMosaic Idealize.ShloMosaic.TcCoe Idealize.SL.Sem
open Idealize.ShloMosaic.ValueIdx Cert.Mlp
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The output array the region should leave: the node network on the arrays the region is entered with. -/
abbrev nodeArr (c : Dev nD) : S100000x64.Idx → EReal :=
  nodeOut (n := 100000) (V c main_v24) (V c main_arg0) (V c main_v25) (V c main_v26) (V c main_v27) (V c main_arg10) (V c main_v28)

/-- The index maps over the grid: the row-indexed windows and the output move one block of rows per point, the
    weight and bias windows stay at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_7.index t (0 : Fin 2) = t.val ∧ win1_7.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- A row-indexed input window's block at point `t` holds rows `10000 t ..` of its array (windows 0, 1). -/
theorem rows0 (c : Dev nD) (t : Fin cfg1.N) (x : S10000x64.Idx) (k' : S100000x64.Idx)
    (hk0 : (k' 0).val = 10000 * t.val + (x 0).val) (hk1 : (k' 1).val = (x 1).val) :
    (iblk1 V c 0 t : Vec Ideal S10000x64 .f32) x = (V c main_v24 : S100000x64.Idx → EReal) k' := by
  obtain ⟨e0, e1, -⟩ := idx_facts t
  unfold iblk1
  rw [View.read_apply]
  show V c main_v24 _ = V c main_v24 _
  refine congrArg (V c main_v24) (funext fun a => Fin.ext ?_)
  match a with
  | ⟨0, _⟩ => show win1_0.index t 0 * 10000 + 1 * (x 0).val = (k' 0).val; rw [e0, hk0]; omega
  | ⟨1, _⟩ => show win1_0.index t 1 * 64 + 1 * (x 1).val = (k' 1).val; rw [e1, hk1]; omega

theorem rows1 (c : Dev nD) (t : Fin cfg1.N) (x : S10000x64.Idx) (k' : S100000x64.Idx)
    (hk0 : (k' 0).val = 10000 * t.val + (x 0).val) (hk1 : (k' 1).val = (x 1).val) :
    (iblk1 V c 1 t : Vec Ideal S10000x64 .f32) x = (V c main_arg0 : S100000x64.Idx → EReal) k' := by
  obtain ⟨-, -, e0, e1, -⟩ := idx_facts t
  unfold iblk1
  rw [View.read_apply]
  show V c main_arg0 _ = V c main_arg0 _
  refine congrArg (V c main_arg0) (funext fun a => Fin.ext ?_)
  match a with
  | ⟨0, _⟩ => show win1_1.index t 0 * 10000 + 1 * (x 0).val = (k' 0).val; rw [e0, hk0]; omega
  | ⟨1, _⟩ => show win1_1.index t 1 * 64 + 1 * (x 1).val = (k' 1).val; rw [e1, hk1]; omega

/-- A weight or bias window's block at any point is its whole array (windows 2 to 6). -/
theorem whole2 (c : Dev nD) (t : Fin cfg1.N) : (iblk1 V c 2 t : Vec Ideal S64x128 .f32) = (V c main_v25 : S64x128.Idx → EReal) := by
  obtain ⟨-, -, -, -, -, -, e0, e1, -⟩ := idx_facts t
  funext x
  unfold iblk1
  rw [View.read_apply]
  show V c main_v25 _ = V c main_v25 _
  refine congrArg (V c main_v25) (funext fun a => Fin.ext ?_)
  match a with
  | ⟨0, _⟩ => show win1_2.index t 0 * 64 + 1 * (x 0).val = (x 0).val; rw [e0]; omega
  | ⟨1, _⟩ => show win1_2.index t 1 * 128 + 1 * (x 1).val = (x 1).val; rw [e1]; omega

theorem whole3 (c : Dev nD) (t : Fin cfg1.N) : (iblk1 V c 3 t : Vec Ideal S64x128 .f32) = (V c main_v26 : S64x128.Idx → EReal) := by
  obtain ⟨-, -, -, -, -, -, -, -, e0, e1, -⟩ := idx_facts t
  funext x
  unfold iblk1
  rw [View.read_apply]
  show V c main_v26 _ = V c main_v26 _
  refine congrArg (V c main_v26) (funext fun a => Fin.ext ?_)
  match a with
  | ⟨0, _⟩ => show win1_3.index t 0 * 64 + 1 * (x 0).val = (x 0).val; rw [e0]; omega
  | ⟨1, _⟩ => show win1_3.index t 1 * 128 + 1 * (x 1).val = (x 1).val; rw [e1]; omega

theorem whole4 (c : Dev nD) (t : Fin cfg1.N) : (iblk1 V c 4 t : Vec Ideal S1x128 .f32) = (V c main_v27 : S1x128.Idx → EReal) := by
  obtain ⟨-, -, -, -, -, -, -, -, -, -, e0, e1, -⟩ := idx_facts t
  funext x
  unfold iblk1
  rw [View.read_apply]
  show V c main_v27 _ = V c main_v27 _
  refine congrArg (V c main_v27) (funext fun a => Fin.ext ?_)
  match a with
  | ⟨0, _⟩ => show win1_4.index t 0 * 1 + 1 * (x 0).val = (x 0).val; rw [e0]; omega
  | ⟨1, _⟩ => show win1_4.index t 1 * 128 + 1 * (x 1).val = (x 1).val; rw [e1]; omega

theorem whole5 (c : Dev nD) (t : Fin cfg1.N) : (iblk1 V c 5 t : Vec Ideal S128x64 .f32) = (V c main_arg10 : S128x64.Idx → EReal) := by
  obtain ⟨-, -, -, -, -, -, -, -, -, -, -, -, e0, e1, -⟩ := idx_facts t
  funext x
  unfold iblk1
  rw [View.read_apply]
  show V c main_arg10 _ = V c main_arg10 _
  refine congrArg (V c main_arg10) (funext fun a => Fin.ext ?_)
  match a with
  | ⟨0, _⟩ => show win1_5.index t 0 * 128 + 1 * (x 0).val = (x 0).val; rw [e0]; omega
  | ⟨1, _⟩ => show win1_5.index t 1 * 64 + 1 * (x 1).val = (x 1).val; rw [e1]; omega

theorem whole6 (c : Dev nD) (t : Fin cfg1.N) : (iblk1 V c 6 t : Vec Ideal S1x64 .f32) = (V c main_v28 : S1x64.Idx → EReal) := by
  obtain ⟨-, -, -, -, -, -, -, -, -, -, -, -, -, -, e0, e1⟩ := idx_facts t
  funext x
  unfold iblk1
  rw [View.read_apply]
  show V c main_v28 _ = V c main_v28 _
  refine congrArg (V c main_v28) (funext fun a => Fin.ext ?_)
  match a with
  | ⟨0, _⟩ => show win1_6.index t 0 * 1 + 1 * (x 0).val = (x 0).val; rw [e0]; omega
  | ⟨1, _⟩ => show win1_6.index t 1 * 64 + 1 * (x 1).val = (x 1).val; rw [e1]; omega

/-- What point `t` writes back is block `t` of the node network on the whole arrays. -/
theorem flushed_eq (c : Dev nD) (t : Fin cfg1.N) :
    (dat1 (F := Ideal) V c).flushed 7 t = ((cfg1.win 7).blk t).view.read (Elt Ideal) (nodeArr V c) := by
  show (cfg1.win 7).cut (grid1.coords t) ((dat1 (F := Ideal) V c).after 7 t) = _
  rw [after1_7]
  unfold out1_7
  rw [View.canon_unit_zero hz]
  simp only [View.ld_unit_zero (S := S10000x64) hz, View.ld_unit_zero (S := S64x128) hz, View.ld_unit_zero (S := S1x128) hz,
    View.ld_unit_zero (S := S128x64) hz, View.ld_unit_zero (S := S1x64) hz]
  rw [Pay.node_payload, whole2 V c t, whole3 V c t, whole4 V c t, whole5 V c t, whole6 V c t]
  funext y
  have hy0 : (y 0).val < 10000 := (y 0).isLt
  have hy1 : (y 1).val < 64 := (y 1).isLt
  have hN : cfg1.N = 10 := N_1
  have ht : t.val < 10 := hN ▸ t.isLt
  obtain ⟨-, -, -, -, e0, e1, -⟩ := idx_facts t
  have e1' : (win1 7).xinj (grid1.coords t) y = ix2 (⟨(y 0).val, hy0⟩ : Fin 10000) (⟨(y 1).val, hy1⟩ : Fin 64) :=
    funext fun a => Fin.ext (by
      match a with
      | ⟨0, _⟩ => rfl
      | ⟨1, _⟩ => rfl)
  have e2' : ((View.whole main_v29).slice ((win1 7).rect t)).emb y
      = ix2 (⟨10000 * t.val + (y 0).val, by omega⟩ : Fin 100000) (⟨(y 1).val, hy1⟩ : Fin 64) :=
    funext fun a => Fin.ext (by
      match a with
      | ⟨0, _⟩ => show win1_7.index t 0 * 10000 + 1 * (y 0).val = 10000 * t.val + (y 0).val; rw [e0]; omega
      | ⟨1, _⟩ => show win1_7.index t 1 * 64 + 1 * (y 1).val = (y 1).val; rw [e1]; omega)
  rw [View.read_apply]
  show nodeOut (iblk1 V c 0 t) (iblk1 V c 1 t) (V c main_v25) (V c main_v26) (V c main_v27) (V c main_arg10) (V c main_v28)
      ((win1 7).xinj (grid1.coords t) y)
    = nodeArr V c (((View.whole main_v29).slice ((win1 7).rect t)).emb y)
  rw [e1', e2']
  exact nodeOut_block (V c main_v24) (V c main_arg0) (iblk1 V c 0 t) (iblk1 V c 1 t)
    (V c main_v25) (V c main_v26) (V c main_v27) (V c main_arg10) (V c main_v28) _ _ _
    (fun k => rows0 V c t _ _ rfl rfl) (fun k => rows1 V c t _ _ rfl rfl)

/-- An index of the output array is in point `t`'s block iff each coordinate is in the block's range. -/
theorem mem_blk (t : Fin cfg1.N) (i : S100000x64.Idx) :
    i ∈ ((cfg1.win 7).blk t).view.set ↔ ∀ a : Fin 2, win1_7.index t a * S10000x64.size a ≤ (i a).val ∧ (i a).val < win1_7.index t a * S10000x64.size a + S10000x64.size a := by
  show i ∈ ((View.whole main_v29).slice (win1_7.rect t)).set ↔ _
  rw [View.set_slice_whole, Rect.mem_set_unit]
  exact Iff.rfl

/-- The output array after the region: the node network on the arrays the region was entered with. -/
theorem final (c : Dev nD) : (dat1 (F := Ideal) V c).arrAt 7 cfg1.N = nodeArr V c :=
  (dat1 (F := Ideal) V c).arrAt_eq_of_cover 7 (nodeArr V c) (fun t _ => flushed_eq V c t) fun i => by
    have hi0 : (i 0).val < 100000 := (i 0).isLt
    have hi1 : (i 1).val < 64 := (i 1).isLt
    have hN : cfg1.N = 10 := N_1
    have hq : (i 0).val / 10000 < cfg1.N := by rw [hN]; omega
    refine ⟨⟨(i 0).val / 10000, hq⟩, flush1_7 _, ?_⟩
    rw [mem_blk]
    obtain ⟨-, -, -, -, e0, e1, -⟩ := idx_facts ⟨(i 0).val / 10000, hq⟩
    intro a
    match a with
    | ⟨0, _⟩ =>
      show win1_7.index ⟨(i 0).val / 10000, hq⟩ 0 * 10000 ≤ (i 0).val ∧ (i 0).val < win1_7.index ⟨(i 0).val / 10000, hq⟩ 0 * 10000 + 10000
      rw [e0]; show (i 0).val / 10000 * 10000 ≤ (i 0).val ∧ (i 0).val < (i 0).val / 10000 * 10000 + 10000; omega
    | ⟨1, _⟩ =>
      show win1_7.index ⟨(i 0).val / 10000, hq⟩ 1 * 64 ≤ (i 1).val ∧ (i 1).val < win1_7.index ⟨(i 0).val / 10000, hq⟩ 1 * 64 + 64
      rw [e1]; omega

end Cert.KernelIdeal.NodeRegion

end
-- ==== Proof.MlpLaw.lean ====
/-
  The whole interaction step as one function of its arguments, and the law for a product against stacked blocks.

  The first weight matrix of each network is a stack of 64-row blocks, one per 64-wide group of input features;
  a bias vector enters as a one-row matrix.  The step is the node network on the scatter-added edge outputs and
  the node features, the edge outputs being the edge network on the edge features and the two gathered copies
  of the node features.  Gathering and scatter-adding enter as given arrays and a given function: both programs
  apply the same ones.

  A row of a matrix of three (two) 64-wide column groups, against a matrix of three (two) 64-row blocks, is the
  sum of the products of the groups against their blocks: a sum over 192 (128) indices cut into 64-index parts.
-/
import proofs.«160199_j7653631722048_2_alg».proof.Proof.MlpSpec

noncomputable section

namespace Cert.Mlp

open Idealize.ShloMosaic Idealize.ShloMosaic.ValueIdx

/-- The 64 rows of a 128-column matrix that start at row `o`. -/
def rows64 {R : Nat} (o : Nat) (h : o + 64 ≤ R) (X : (⟨2, ![R, 128]⟩ : Shape).Idx → EReal) :
    (⟨2, ![64, 128]⟩ : Shape).Idx → EReal :=
  fun i => X (ix2 (⟨o + (i 0).val, Nat.lt_of_lt_of_le (Nat.add_lt_add_left (i 0).isLt o) h⟩ : Fin R) (i 1))

/-- A vector as a one-row matrix. -/
def asRow {n : Nat} (v : (⟨1, ![n]⟩ : Shape).Idx → EReal) : (⟨2, ![1, n]⟩ : Shape).Idx → EReal :=
  fun i => v (ix1 (i 1))

theorem rows64_ix2 {R : Nat} (o : Nat) (h : o + 64 ≤ R) (X : (⟨2, ![R, 128]⟩ : Shape).Idx → EReal) (k : Fin 64) (c : Fin 128) :
    rows64 o h X (ix2 k c) = X (ix2 (⟨o + k.val, Nat.lt_of_lt_of_le (Nat.add_lt_add_left k.isLt o) h⟩ : Fin R) c) := rfl

theorem asRow_ix2 {n : Nat} (v : (⟨1, ![n]⟩ : Shape).Idx → EReal) (u : Fin 1) (c : Fin n) : asRow v (ix2 u c) = v (ix1 c) := rfl

/-- The edge outputs: the edge network on the edge features and the gathered receiver and sender features,
    against the three 64-row blocks of the first weight matrix. -/
def edgeStep (x1 recv send : (⟨2, ![1000000, 64]⟩ : Shape).Idx → EReal) (x4 : (⟨2, ![192, 128]⟩ : Shape).Idx → EReal)
    (x5 : (⟨1, ![128]⟩ : Shape).Idx → EReal) (x6 : (⟨2, ![128, 64]⟩ : Shape).Idx → EReal) (x7 : (⟨1, ![64]⟩ : Shape).Idx → EReal) :
    (⟨2, ![1000000, 64]⟩ : Shape).Idx → EReal :=
  edgeOut x1 recv send (rows64 0 (by decide) x4) (rows64 64 (by decide) x4) (rows64 128 (by decide) x4) (asRow x5) x6 (asRow x7)

/-- The node outputs: the node network on the aggregated edge outputs and the node features, against the two
    64-row blocks of the first weight matrix. -/
def nodeStep (agg x0 : (⟨2, ![100000, 64]⟩ : Shape).Idx → EReal) (x8 : (⟨2, ![128, 128]⟩ : Shape).Idx → EReal)
    (x9 : (⟨1, ![128]⟩ : Shape).Idx → EReal) (x10 : (⟨2, ![128, 64]⟩ : Shape).Idx → EReal) (x11 : (⟨1, ![64]⟩ : Shape).Idx → EReal) :
    (⟨2, ![100000, 64]⟩ : Shape).Idx → EReal :=
  nodeOut agg x0 (rows64 0 (by decide) x8) (rows64 64 (by decide) x8) (asRow x9) x10 (asRow x11)

/-- A row of three 64-wide groups against three 64-row blocks. -/
theorem dot_groups3 (cat W : Fin 192 → EReal) (a b c wa wb wc : Fin 64 → EReal)
    (ha : ∀ k, cat (Fin.castAdd 64 (Fin.castAdd 64 k)) = a k) (hb : ∀ k, cat (Fin.castAdd 64 (Fin.natAdd 64 k)) = b k)
    (hc : ∀ k, cat (Fin.natAdd 128 k) = c k)
    (hwa : ∀ k, W (Fin.castAdd 64 (Fin.castAdd 64 k)) = wa k) (hwb : ∀ k, W (Fin.castAdd 64 (Fin.natAdd 64 k)) = wb k)
    (hwc : ∀ k, W (Fin.natAdd 128 k) = wc k) :
    ∑ k : Fin 192, cat k * W k = ((∑ k : Fin 64, a k * wa k) + (∑ k : Fin 64, b k * wb k)) + (∑ k : Fin 64, c k * wc k) := by
  rw [sum_192]; simp only [ha, hb, hc, hwa, hwb, hwc]

/-- A row of two 64-wide groups against two 64-row blocks. -/
theorem dot_groups2 (cat W : Fin 128 → EReal) (a b wa wb : Fin 64 → EReal)
    (ha : ∀ k, cat (Fin.castAdd 64 k) = a k) (hb : ∀ k, cat (Fin.natAdd 64 k) = b k)
    (hwa : ∀ k, W (Fin.castAdd 64 k) = wa k) (hwb : ∀ k, W (Fin.natAdd 64 k) = wb k) :
    ∑ k : Fin 128, cat k * W k = (∑ k : Fin 64, a k * wa k) + (∑ k : Fin 64, b k * wb k) := by
  rw [sum_128]; simp only [ha, hb, hwa, hwb]

end Cert.Mlp

end
-- ==== Proof.KernelValue.lean ====
/-
  The idealized kernel's result as one function of its twelve arguments.

  Before the first region the host gathers the node features at the receivers and at the senders (negative
  indices wrapped by the node count first; the change of float format after it is the identity on the extended
  reals), cuts the first edge weight matrix into its three 64-row blocks and turns the two bias vectors into
  one-row matrices; the first region then leaves the edge network's outputs.  Between the regions the host
  scatter-adds those outputs into a zero array at the receivers, cuts the first node weight matrix into its two
  blocks and turns the two bias vectors into rows; the second region leaves the node network's outputs, which
  is the program's result.  No argument is written on the way.
-/
import proofs.«160199_j7653631722048_2_alg».proof.Proof.KernelRun
import proofs.«160199_j7653631722048_2_alg».proof.Proof.EdgeRegion
import proofs.«160199_j7653631722048_2_alg».proof.Proof.NodeRegion
import proofs.«160199_j7653631722048_2_alg».proof.Proof.MlpLaw
import Idealize.ShloMosaic.Lib.StableHlo.Run
import Idealize.ShloMosaic.Lib.ValueLayout

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo
open Idealize.ShloMosaic.ValueIdx Cert.Mlp

/-- The gather's row indices: a negative index is taken from the end (the node count added). -/
abbrev wrapIdx (x : IVec S1000000 32) : IVec S1000000x1 32 :=
  broadcastInDim S1000000x1 ![0] bcast_S1000000_S1000000x1_0
    (select (cmpi .slt x (broadcastInDim S1000000 ![] bcast_S_S1000000 (constantI S_ 32 0#32)))
      (addi x (broadcastInDim S1000000 ![] bcast_S_S1000000 (constantI S_ 32 100000#32))) x)

/-- The node features gathered at an index array. -/
abbrev gathered (x0 : FVec Ideal S100000x64 .f32) (x : IVec S1000000 32) : FVec Ideal S1000000x64 .f32 :=
  Host.gather gather_S100000x64_S1000000x1_S1000000x64_1_0_n_n_0_1_164 x0 (wrapIdx x)

/-- The edge outputs scatter-added into a zero array at the receivers. -/
abbrev scattered (x3 : IVec S1000000 32) (u : FVec Ideal S1000000x64 .f32) : FVec Ideal S100000x64 .f32 :=
  Host.scatterAdd (F := Ideal) scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 x3) u

/-- The program's result as a function of its arguments. -/
def value (x0 : FVec Ideal S100000x64 .f32) (x1 : FVec Ideal S1000000x64 .f32) (x2 x3 : IVec S1000000 32)
    (x4 : FVec Ideal S192x128 .f32) (x5 : FVec Ideal S128 .f32) (x6 : FVec Ideal S128x64 .f32) (x7 : FVec Ideal S64 .f32)
    (x8 : FVec Ideal S128x128 .f32) (x9 : FVec Ideal S128 .f32) (x10 : FVec Ideal S128x64 .f32) (x11 : FVec Ideal S64 .f32) :
    FVec Ideal S100000x64 .f32 :=
  nodeStep (scattered x3 (edgeStep x1 (gathered x0 x3) (gathered x0 x2) x4 x5 x6 x7)) x0 x8 x9 x10 x11

/-- Sixty-four rows cut out of a 128-column matrix are those rows. -/
theorem slice_rows {R : Nat} (o : Nat) (h : o + 64 ≤ R) (X : (⟨2, ![R, 128]⟩ : Shape).Idx → EReal)
    (hs : (⟨2, ![R, 128]⟩ : Shape).Slices ![o, 0] ⟨2, ![64, 128]⟩) :
    extractStridedSlice ⟨2, ![64, 128]⟩ ![o, 0] X hs = rows64 o h X := by
  funext j
  obtain ⟨p, q, rfl⟩ : ∃ (p : Fin 64) (q : Fin 128), j = ix2 p q := ⟨j 0, j 1, eq_ix2 j⟩
  exact slice2_axis0_eq o X hs p q

/-- A vector reshaped to one row is that row. -/
theorem reshape_row {n : Nat} (x : (⟨1, ![n]⟩ : Shape).Idx → EReal) (h : (⟨1, ![n]⟩ : Shape).ShapeCasts ⟨2, ![1, n]⟩) :
    shapeCast ⟨2, ![1, n]⟩ x h = asRow x := by
  funext j
  obtain ⟨u, q, rfl⟩ : ∃ (u : Fin 1) (q : Fin n), j = ix2 u q := ⟨j 0, j 1, eq_ix2 j⟩
  exact shapeCast_a_1a_apply x h u q

variable (m : (ℓ : Loc nD τ sig) → Buf (Elt Ideal) ℓ) (ρ : Dev nD → PrngReg)

/-! ## What the first region is entered with -/

theorem V1_arg1 (c : Dev nD) : V1 m ρ c main_arg1 = m ((c : Thread nD τ).loc main_arg1) := by
  show StableHlo.after hostOps0 (W0 m ρ c) (Proc.devRef .tc main_arg1) = _
  after_results <;> rfl

theorem V1_arg6 (c : Dev nD) : V1 m ρ c main_arg6 = m ((c : Thread nD τ).loc main_arg6) := by
  show StableHlo.after hostOps0 (W0 m ρ c) (Proc.devRef .tc main_arg6) = _
  after_results <;> rfl

theorem V1_v7 (c : Dev nD) : V1 m ρ c main_v7 = gathered (m ((c : Thread nD τ).loc main_arg0)) (m ((c : Thread nD τ).loc main_arg3)) := by
  show StableHlo.after hostOps0 (W0 m ρ c) (Proc.devRef .tc main_v7) = _
  after_results <;> rfl

theorem V1_v15 (c : Dev nD) : V1 m ρ c main_v15 = gathered (m ((c : Thread nD τ).loc main_arg0)) (m ((c : Thread nD τ).loc main_arg2)) := by
  show StableHlo.after hostOps0 (W0 m ρ c) (Proc.devRef .tc main_v15) = _
  after_results <;> rfl

theorem V1_v16 (c : Dev nD) : V1 m ρ c main_v16 = rows64 0 (by decide) (m ((c : Thread nD τ).loc main_arg4)) := by
  show StableHlo.after hostOps0 (W0 m ρ c) (Proc.devRef .tc main_v16) = _
  after_results
  exact slice_rows 0 _ _ _

theorem V1_v17 (c : Dev nD) : V1 m ρ c main_v17 = rows64 64 (by decide) (m ((c : Thread nD τ).loc main_arg4)) := by
  show StableHlo.after hostOps0 (W0 m ρ c) (Proc.devRef .tc main_v17) = _
  after_results
  exact slice_rows 64 _ _ _

theorem V1_v18 (c : Dev nD) : V1 m ρ c main_v18 = rows64 128 (by decide) (m ((c : Thread nD τ).loc main_arg4)) := by
  show StableHlo.after hostOps0 (W0 m ρ c) (Proc.devRef .tc main_v18) = _
  after_results
  exact slice_rows 128 _ _ _

theorem V1_v19 (c : Dev nD) : V1 m ρ c main_v19 = asRow (m ((c : Thread nD τ).loc main_arg5)) := by
  show StableHlo.after hostOps0 (W0 m ρ c) (Proc.devRef .tc main_v19) = _
  after_results
  exact reshape_row _ _

theorem V1_v20 (c : Dev nD) : V1 m ρ c main_v20 = asRow (m ((c : Thread nD τ).loc main_arg7)) := by
  show StableHlo.after hostOps0 (W0 m ρ c) (Proc.devRef .tc main_v20) = _
  after_results
  exact reshape_row _ _

/-- The first region's output array: the edge outputs, as a function of the arguments. -/
theorem edge_result (c : Dev nD) :
    EdgeRegion.edgeArr (V1 m ρ) c
      = edgeStep (m ((c : Thread nD τ).loc main_arg1))
          (gathered (m ((c : Thread nD τ).loc main_arg0)) (m ((c : Thread nD τ).loc main_arg3)))
          (gathered (m ((c : Thread nD τ).loc main_arg0)) (m ((c : Thread nD τ).loc main_arg2)))
          (m ((c : Thread nD τ).loc main_arg4)) (m ((c : Thread nD τ).loc main_arg5))
          (m ((c : Thread nD τ).loc main_arg6)) (m ((c : Thread nD τ).loc main_arg7)) := by
  show edgeOut (V1 m ρ c main_arg1) (V1 m ρ c main_v7) (V1 m ρ c main_v15) (V1 m ρ c main_v16) (V1 m ρ c main_v17)
    (V1 m ρ c main_v18) (V1 m ρ c main_v19) (V1 m ρ c main_arg6) (V1 m ρ c main_v20) = _
  rw [V1_arg1, V1_v7, V1_v15, V1_v16, V1_v17, V1_v18, V1_v19, V1_arg6, V1_v20]
  rfl

/-! ## What the second region is entered with -/

/-- An argument is as launched after the first region: no host operation and no write-back touches it. -/
theorem W2_arg0 (c : Dev nD) : W2 m ρ c (Proc.devRef .tc main_arg0) = m ((c : Thread nD τ).loc main_arg0) :=
  (W2_of_ne m ρ c main_arg0 (by decide)).trans (by
    show StableHlo.after hostOps0 (W0 m ρ c) (Proc.devRef .tc main_arg0) = _
    after_results <;> rfl)

theorem W2_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results <;> rfl)

theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results <;> rfl)

theorem W2_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results <;> rfl)

theorem W2_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results <;> rfl)

theorem W2_arg11 (c : Dev nD) : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    after_results <;> rfl)

theorem V3_v24 (c : Dev nD) :
    V3 m ρ c main_v24 = scattered (m ((c : Thread nD τ).loc main_arg3)) (EdgeRegion.edgeArr (V1 m ρ) c) := by
  show StableHlo.after hostOps1 (W2 m ρ c) (Proc.devRef .tc main_v24) = _
  after_results
  rw [W2_arg3, show W2 m ρ c (Proc.devRef .tc main_v21) = EdgeRegion.edgeArr (V1 m ρ) c from
    (W2_arr m ρ c 9).trans (EdgeRegion.final (V1 m ρ) c)]

theorem V3_arg0 (c : Dev nD) : V3 m ρ c main_arg0 = m ((c : Thread nD τ).loc main_arg0) := by
  show StableHlo.after hostOps1 (W2 m ρ c) (Proc.devRef .tc main_arg0) = _
  after_results
  exact W2_arg0 m ρ c

theorem V3_arg10 (c : Dev nD) : V3 m ρ c main_arg10 = m ((c : Thread nD τ).loc main_arg10) := by
  show StableHlo.after hostOps1 (W2 m ρ c) (Proc.devRef .tc main_arg10) = _
  after_results
  exact W2_arg10 m ρ c

theorem V3_v25 (c : Dev nD) : V3 m ρ c main_v25 = rows64 0 (by decide) (m ((c : Thread nD τ).loc main_arg8)) := by
  show StableHlo.after hostOps1 (W2 m ρ c) (Proc.devRef .tc main_v25) = _
  after_results
  rw [W2_arg8]
  exact slice_rows 0 _ _ _

theorem V3_v26 (c : Dev nD) : V3 m ρ c main_v26 = rows64 64 (by decide) (m ((c : Thread nD τ).loc main_arg8)) := by
  show StableHlo.after hostOps1 (W2 m ρ c) (Proc.devRef .tc main_v26) = _
  after_results
  rw [W2_arg8]
  exact slice_rows 64 _ _ _

theorem V3_v27 (c : Dev nD) : V3 m ρ c main_v27 = asRow (m ((c : Thread nD τ).loc main_arg9)) := by
  show StableHlo.after hostOps1 (W2 m ρ c) (Proc.devRef .tc main_v27) = _
  after_results
  rw [W2_arg9]
  exact reshape_row _ _

theorem V3_v28 (c : Dev nD) : V3 m ρ c main_v28 = asRow (m ((c : Thread nD τ).loc main_arg11)) := by
  show StableHlo.after hostOps1 (W2 m ρ c) (Proc.devRef .tc main_v28) = _
  after_results
  rw [W2_arg11]
  exact reshape_row _ _

/-! ## The result -/

/-- The result buffer at the last boundary is the program's value of the arguments as launched. -/
theorem result_eq (c : Dev nD) :
    W4 m ρ c (Proc.devRef .tc main_v29)
      = value (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) := by
  refine (W4_arr m ρ c 7).trans ((NodeRegion.final (V3 m ρ) c).trans ?_)
  show nodeOut (V3 m ρ c main_v24) (V3 m ρ c main_arg0) (V3 m ρ c main_v25) (V3 m ρ c main_v26) (V3 m ρ c main_v27)
    (V3 m ρ c main_arg10) (V3 m ρ c main_v28) = _
  rw [V3_v24, V3_arg0, V3_v25, V3_v26, V3_v27, V3_arg10, V3_v28, edge_result]
  rfl

/-- The whole run, read: the result buffer ends at the program's value of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v29)
        = value (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result_eq m ρ c), (h c).2⟩) (run_result (F := Ideal) m ρ)

end Cert.KernelIdeal.Whole

end
-- ==== Proof.RefEdge.lean ====
/-
  The reference's edge outputs are the edge network on its gathered arrays.

  The reference joins the edge features and the two gathered copies of the node features side by side into a
  [1000000, 192] array and takes one product against the whole [192, 128] first weight matrix.  Column k of the
  joined array is column k of the edge features for k < 64, column k - 64 of the receivers' features for
  64 <= k < 128 and column k - 128 of the senders' features for 128 <= k; the product's sum over the 192 columns
  is then the sum of the three 64-column products against the three 64-row blocks of the weight matrix.
-/
import proofs.«160199_j7653631722048_2_alg».proof.Proof.Gen.ReferenceIdeal.Read
import proofs.«160199_j7653631722048_2_alg».proof.Proof.MlpLaw

noncomputable section

namespace Cert.ReferenceIdeal.Bridge

open Cert.ReferenceIdeal Cert.ReferenceIdeal.Gen Cert.ReferenceIdeal.Read Idealize.ShloMosaic Idealize.ShloMosaic.ValueIdx Cert.Mlp

/-- The three arrays joined along the columns, read in each 64-column third. -/
theorem joined3 (A B C : FVec Ideal S1000000x64 .f32) (e : Fin 1000000) (k : Fin 64) :
    concatenate S1000000x192 1 [⟨S1000000x64, A⟩, ⟨S1000000x64, B⟩, ⟨S1000000x64, C⟩]
        concatenates_S1000000x64_S1000000x64_S1000000x64_S1000000x192_d1 (ix2 e (Fin.castAdd 64 (Fin.castAdd 64 k))) = A (ix2 e k)
    ∧ concatenate S1000000x192 1 [⟨S1000000x64, A⟩, ⟨S1000000x64, B⟩, ⟨S1000000x64, C⟩]
        concatenates_S1000000x64_S1000000x64_S1000000x64_S1000000x192_d1 (ix2 e (Fin.castAdd 64 (Fin.natAdd 64 k))) = B (ix2 e k)
    ∧ concatenate S1000000x192 1 [⟨S1000000x64, A⟩, ⟨S1000000x64, B⟩, ⟨S1000000x64, C⟩]
        concatenates_S1000000x64_S1000000x64_S1000000x64_S1000000x192_d1 (ix2 e (Fin.natAdd 128 k)) = C (ix2 e k) := by
  refine ⟨?_, ?_, ?_⟩
  · refine concatenate_apply_piece (t := S1000000x192) (1 : Fin 2) [⟨S1000000x64, A⟩, ⟨S1000000x64, B⟩, ⟨S1000000x64, C⟩] concatenates_S1000000x64_S1000000x64_S1000000x64_S1000000x192_d1 (ix2 e (Fin.castAdd 64 (Fin.castAdd 64 k))) 0 (Nat.succ_pos 2) S1000000x64 A rfl rfl 0 rfl (ix2 e k) (fun b hb => ?_) ?_
    · match b with
      | ⟨0, _⟩ => rfl
      | ⟨1, _⟩ => exact absurd rfl hb
    · exact Nat.zero_add _
  · refine concatenate_apply_piece (t := S1000000x192) (1 : Fin 2) [⟨S1000000x64, A⟩, ⟨S1000000x64, B⟩, ⟨S1000000x64, C⟩] concatenates_S1000000x64_S1000000x64_S1000000x64_S1000000x192_d1 (ix2 e (Fin.castAdd 64 (Fin.natAdd 64 k))) 1 (Nat.succ_lt_succ (Nat.succ_pos 1)) S1000000x64 B rfl rfl 64 rfl (ix2 e k) (fun b hb => ?_) ?_
    · match b with
      | ⟨0, _⟩ => rfl
      | ⟨1, _⟩ => exact absurd rfl hb
    · rfl
  · refine concatenate_apply_piece (t := S1000000x192) (1 : Fin 2) [⟨S1000000x64, A⟩, ⟨S1000000x64, B⟩, ⟨S1000000x64, C⟩] concatenates_S1000000x64_S1000000x64_S1000000x64_S1000000x192_d1 (ix2 e (Fin.natAdd 128 k)) 2 (Nat.lt_succ_self 2) S1000000x64 C rfl rfl 128 rfl (ix2 e k) (fun b hb => ?_) ?_
    · match b with
      | ⟨0, _⟩ => rfl
      | ⟨1, _⟩ => exact absurd rfl hb
    · rfl

/-- The reference's edge outputs. -/
theorem edge_eq (x0 : FVec Ideal S100000x64 .f32) (x1 : FVec Ideal S1000000x64 .f32) (x2 x3 : IVec S1000000 32)
    (x4 : FVec Ideal S192x128 .f32) (x5 : FVec Ideal S128 .f32) (x6 : FVec Ideal S128x64 .f32) (x7 : FVec Ideal S64 .f32) :
    val_main_v23 (F := Ideal) x0 x1 x2 x3 x4 x5 x6 x7
      = edgeStep x1 (val_main_v6 (F := Ideal) x0 x3) (val_main_v13 (F := Ideal) x0 x2) x4 x5 x6 x7 := by
  funext i
  obtain ⟨e, j, rfl⟩ : ∃ (e : Fin 1000000) (j : Fin 64), i = ix2 e j := ⟨i 0, i 1, eq_ix2 i⟩
  unfold edgeStep
  rw [edgeOut_ix2, val_main_v23_apply, val_main_v20_apply, val_main_v22_apply, val_main_v21_apply]
  unfold outRow
  have hb2 : idx_main_v21 (idx_main_v22 (ix2 e j)) = ix1 j := funext fun a => by
    match a with
    | ⟨0, _⟩ => rfl
  rw [hb2]
  refine congr (congrArg (fun a b : EReal => a + b) (Finset.sum_congr rfl fun h _ => ?_)) rfl
  have el : lidx_main_v20 (ix2 e j) h = ix2 e h := funext fun a => by
    match a with
    | ⟨0, _⟩ => rfl
    | ⟨1, _⟩ => rfl
  have er : ridx_main_v20 (ix2 e j) h = ix2 h j := funext fun a => by
    match a with
    | ⟨0, _⟩ => rfl
    | ⟨1, _⟩ => rfl
  rw [el, er, val_main_v19_apply, val_main_v18_apply, val_main_v15_apply, val_main_v17_apply, val_main_v16_apply,
    val_main_call0_v0_apply, val_main_call0_cst_apply]
  have hb1 : idx_main_v16 (idx_main_v17 (ix2 e h)) = ix1 h := funext fun a => by
    match a with
    | ⟨0, _⟩ => rfl
  rw [hb1]
  have hl : ∀ k : Fin 192, lidx_main_v15 (ix2 e h) k = ix2 e k := fun k => funext fun a => by
    match a with
    | ⟨0, _⟩ => rfl
    | ⟨1, _⟩ => rfl
  have hr : ∀ k : Fin 192, ridx_main_v15 (ix2 e h) k = ix2 k h := fun k => funext fun a => by
    match a with
    | ⟨0, _⟩ => rfl
    | ⟨1, _⟩ => rfl
  simp only [hl, hr]
  have hdot : ∑ k : Fin 192, val_main_v14 (F := Ideal) x0 x1 x2 x3 (ix2 e k) * x4 (ix2 k h)
      = ((∑ k : Fin 64, x1 (ix2 e k) * rows64 0 (by decide) x4 (ix2 k h))
          + (∑ k : Fin 64, val_main_v6 (F := Ideal) x0 x3 (ix2 e k) * rows64 64 (by decide) x4 (ix2 k h)))
        + (∑ k : Fin 64, val_main_v13 (F := Ideal) x0 x2 (ix2 e k) * rows64 128 (by decide) x4 (ix2 k h)) := by
    refine dot_groups3 (fun k => val_main_v14 (F := Ideal) x0 x1 x2 x3 (ix2 e k)) (fun k => x4 (ix2 k h)) _ _ _ _ _ _
      (fun k => ?_) (fun k => ?_) (fun k => ?_) (fun k => ?_) (fun k => ?_) (fun k => ?_)
    · exact (joined3 x1 (val_main_v6 (F := Ideal) x0 x3) (val_main_v13 (F := Ideal) x0 x2) e k).1
    · exact (joined3 x1 (val_main_v6 (F := Ideal) x0 x3) (val_main_v13 (F := Ideal) x0 x2) e k).2.1
    · exact (joined3 x1 (val_main_v6 (F := Ideal) x0 x3) (val_main_v13 (F := Ideal) x0 x2) e k).2.2
    · rw [rows64_ix2]; exact congrArg x4 (congrArg (fun r => ix2 r h) (Fin.ext (Nat.zero_add _).symm))
    · rfl
    · rfl
  rw [hdot]
  rfl

end Cert.ReferenceIdeal.Bridge

end
-- ==== Proof.RefNode.lean ====
/-
  The reference's result is the node network on its aggregated edge outputs.

  The reference joins the aggregated edge outputs and the node features side by side into a [100000, 128] array
  and takes one product against the whole [128, 128] first node weight matrix: the sum over the 128 columns is
  the sum of the two 64-column products against the two 64-row blocks of the weight matrix.  The aggregated
  array is the scatter-add of the reference's edge outputs, which are the edge network on its gathered arrays.
-/
import proofs.«160199_j7653631722048_2_alg».proof.Proof.Gen.ReferenceIdeal.Read
import proofs.«160199_j7653631722048_2_alg».proof.Proof.MlpLaw
import proofs.«160199_j7653631722048_2_alg».proof.Proof.RefEdge

noncomputable section

namespace Cert.ReferenceIdeal.Bridge

open Cert.ReferenceIdeal Cert.ReferenceIdeal.Gen Cert.ReferenceIdeal.Read Idealize.ShloMosaic Idealize.ShloMosaic.ValueIdx Cert.Mlp

/-- The two arrays joined along the columns, read in each 64-column half. -/
theorem joined2 (A B : FVec Ideal S100000x64 .f32) (p : Fin 100000) (k : Fin 64) :
    concatenate S100000x128 1 [⟨S100000x64, A⟩, ⟨S100000x64, B⟩]
        concatenates_S100000x64_S100000x64_S100000x128_d1 (ix2 p (Fin.castAdd 64 k)) = A (ix2 p k)
    ∧ concatenate S100000x128 1 [⟨S100000x64, A⟩, ⟨S100000x64, B⟩]
        concatenates_S100000x64_S100000x64_S100000x128_d1 (ix2 p (Fin.natAdd 64 k)) = B (ix2 p k) := by
  refine ⟨?_, ?_⟩
  · refine concatenate_apply_piece (t := S100000x128) (1 : Fin 2) [⟨S100000x64, A⟩, ⟨S100000x64, B⟩] concatenates_S100000x64_S100000x64_S100000x128_d1
      (ix2 p (Fin.castAdd 64 k)) 0 (Nat.succ_pos 1) S100000x64 A rfl rfl 0 rfl (ix2 p k) (fun b hb => ?_) ?_
    · match b with
      | ⟨0, _⟩ => rfl
      | ⟨1, _⟩ => exact absurd rfl hb
    · exact Nat.zero_add _
  · refine concatenate_apply_piece (t := S100000x128) (1 : Fin 2) [⟨S100000x64, A⟩, ⟨S100000x64, B⟩] concatenates_S100000x64_S100000x64_S100000x128_d1
      (ix2 p (Fin.natAdd 64 k)) 1 (Nat.lt_succ_self 1) S100000x64 B rfl rfl 64 rfl (ix2 p k) (fun b hb => ?_) ?_
    · match b with
      | ⟨0, _⟩ => rfl
      | ⟨1, _⟩ => exact absurd rfl hb
    · rfl

/-- The reference's result from its aggregated edge outputs. -/
theorem node_eq (x0 : FVec Ideal S100000x64 .f32) (x1 : FVec Ideal S1000000x64 .f32) (x2 x3 : IVec S1000000 32)
    (x4 : FVec Ideal S192x128 .f32) (x5 : FVec Ideal S128 .f32) (x6 : FVec Ideal S128x64 .f32) (x7 : FVec Ideal S64 .f32)
    (x8 : FVec Ideal S128x128 .f32) (x9 : FVec Ideal S128 .f32) (x10 : FVec Ideal S128x64 .f32) (x11 : FVec Ideal S64 .f32) :
    val_main_v36 (F := Ideal) x0 x1 x2 x3 x4 x5 x6 x7 x8 x9 x10 x11
      = nodeStep (val_main_v26 (F := Ideal) x0 x1 x2 x3 x4 x5 x6 x7) x0 x8 x9 x10 x11 := by
  funext i
  obtain ⟨p, j, rfl⟩ : ∃ (p : Fin 100000) (j : Fin 64), i = ix2 p j := ⟨i 0, i 1, eq_ix2 i⟩
  unfold nodeStep
  rw [nodeOut_ix2, val_main_v36_apply, val_main_v33_apply, val_main_v35_apply, val_main_v34_apply]
  unfold outRow
  have hb2 : idx_main_v34 (idx_main_v35 (ix2 p j)) = ix1 j := funext fun a => by
    match a with
    | ⟨0, _⟩ => rfl
  rw [hb2]
  refine congr (congrArg (fun a b : EReal => a + b) (Finset.sum_congr rfl fun h _ => ?_)) rfl
  have el : lidx_main_v33 (ix2 p j) h = ix2 p h := funext fun a => by
    match a with
    | ⟨0, _⟩ => rfl
    | ⟨1, _⟩ => rfl
  have er : ridx_main_v33 (ix2 p j) h = ix2 h j := funext fun a => by
    match a with
    | ⟨0, _⟩ => rfl
    | ⟨1, _⟩ => rfl
  rw [el, er, val_main_v32_apply, val_main_v31_apply, val_main_v28_apply, val_main_v30_apply, val_main_v29_apply,
    val_main_call1_v0_apply, val_main_call1_cst_apply]
  have hb1 : idx_main_v29 (idx_main_v30 (ix2 p h)) = ix1 h := funext fun a => by
    match a with
    | ⟨0, _⟩ => rfl
  rw [hb1]
  have hl : ∀ k : Fin 128, lidx_main_v28 (ix2 p h) k = ix2 p k := fun k => funext fun a => by
    match a with
    | ⟨0, _⟩ => rfl
    | ⟨1, _⟩ => rfl
  have hr : ∀ k : Fin 128, ridx_main_v28 (ix2 p h) k = ix2 k h := fun k => funext fun a => by
    match a with
    | ⟨0, _⟩ => rfl
    | ⟨1, _⟩ => rfl
  simp only [hl, hr]
  have hdot : ∑ k : Fin 128, val_main_v27 (F := Ideal) x0 x1 x2 x3 x4 x5 x6 x7 (ix2 p k) * x8 (ix2 k h)
      = (∑ k : Fin 64, val_main_v26 (F := Ideal) x0 x1 x2 x3 x4 x5 x6 x7 (ix2 p k) * rows64 0 (by decide) x8 (ix2 k h))
        + (∑ k : Fin 64, x0 (ix2 p k) * rows64 64 (by decide) x8 (ix2 k h)) := by
    refine dot_groups2 (fun k => val_main_v27 (F := Ideal) x0 x1 x2 x3 x4 x5 x6 x7 (ix2 p k)) (fun k => x8 (ix2 k h)) _ _ _ _
      (fun k => ?_) (fun k => ?_) (fun k => ?_) (fun k => ?_)
    · exact (joined2 (val_main_v26 (F := Ideal) x0 x1 x2 x3 x4 x5 x6 x7) x0 p k).1
    · exact (joined2 (val_main_v26 (F := Ideal) x0 x1 x2 x3 x4 x5 x6 x7) x0 p k).2
    · rw [rows64_ix2]; exact congrArg x8 (congrArg (fun r => ix2 r h) (Fin.ext (Nat.zero_add _).symm))
    · rfl
  rw [hdot]
  rfl

/-- The reference's result as the node network on the scatter-added edge network. -/
theorem value_eq (x0 : FVec Ideal S100000x64 .f32) (x1 : FVec Ideal S1000000x64 .f32) (x2 x3 : IVec S1000000 32)
    (x4 : FVec Ideal S192x128 .f32) (x5 : FVec Ideal S128 .f32) (x6 : FVec Ideal S128x64 .f32) (x7 : FVec Ideal S64 .f32)
    (x8 : FVec Ideal S128x128 .f32) (x9 : FVec Ideal S128 .f32) (x10 : FVec Ideal S128x64 .f32) (x11 : FVec Ideal S64 .f32) :
    val_main_v36 (F := Ideal) x0 x1 x2 x3 x4 x5 x6 x7 x8 x9 x10 x11
      = nodeStep (Host.scatterAdd (F := Ideal) (φ := .f32) scatter_S100000x64_S1000000x1_S1000000x64_1_0_0_1 (val_main_v24 (F := Ideal))
          (val_main_v25 (F := Ideal) x3)
          (edgeStep x1 (val_main_v6 (F := Ideal) x0 x3) (val_main_v13 (F := Ideal) x0 x2) x4 x5 x6 x7)) x0 x8 x9 x10 x11 := by
  rw [node_eq]
  unfold val_main_v26
  rw [edge_eq]

end Cert.ReferenceIdeal.Bridge

end
-- ==== Proof.Bridge.lean ====
/-
  The two programs compute one function.

  The reference's result is the node network on the scatter-added edge network of its gathered arrays, with the
  weight matrices taken block by block; the kernel's result is the same expression.  The gathered arrays and the
  scatter-add are spelt by each program in its own constants: the same gather of the node features at the same
  wrapped indices, the same scatter-add into a zero array at the receivers.
-/
import proofs.«160199_j7653631722048_2_alg».proof.Proof.KernelValue
import proofs.«160199_j7653631722048_2_alg».proof.Proof.RefNode

noncomputable section

namespace Cert.Bridge

open Idealize.ShloMosaic Cert.Mlp

/-- The reference's gathered arrays are the kernel's. -/
theorem gathered_eq (x0 : FVec Ideal Cert.KernelIdeal.S100000x64 .f32) (x : IVec Cert.KernelIdeal.S1000000 32) :
    Cert.ReferenceIdeal.Read.val_main_v6 (F := Ideal) x0 x = Cert.KernelIdeal.Whole.gathered x0 x := rfl

theorem gathered_eq' (x0 : FVec Ideal Cert.KernelIdeal.S100000x64 .f32) (x : IVec Cert.KernelIdeal.S1000000 32) :
    Cert.ReferenceIdeal.Read.val_main_v13 (F := Ideal) x0 x = Cert.KernelIdeal.Whole.gathered x0 x := rfl

/-- The reference's scatter-add is the kernel's. -/
theorem scattered_eq (x3 : IVec Cert.KernelIdeal.S1000000 32) (u : FVec Ideal Cert.KernelIdeal.S1000000x64 .f32) :
    Host.scatterAdd (F := Ideal) (φ := .f32) Cert.ReferenceIdeal.scatter_S100000x64_S1000000x1_S1000000x64_1_0_0_1
        (Cert.ReferenceIdeal.Read.val_main_v24 (F := Ideal)) (Cert.ReferenceIdeal.Read.val_main_v25 (F := Ideal) x3) u
      = Cert.KernelIdeal.Whole.scattered x3 u := rfl

/-- The reference's result is the kernel's value function of the same arguments. -/
theorem ref_is_kernel (x0 : FVec Ideal Cert.KernelIdeal.S100000x64 .f32) (x1 : FVec Ideal Cert.KernelIdeal.S1000000x64 .f32)
    (x2 x3 : IVec Cert.KernelIdeal.S1000000 32) (x4 : FVec Ideal Cert.KernelIdeal.S192x128 .f32)
    (x5 : FVec Ideal Cert.KernelIdeal.S128 .f32) (x6 : FVec Ideal Cert.KernelIdeal.S128x64 .f32)
    (x7 : FVec Ideal Cert.KernelIdeal.S64 .f32) (x8 : FVec Ideal Cert.KernelIdeal.S128x128 .f32)
    (x9 : FVec Ideal Cert.KernelIdeal.S128 .f32) (x10 : FVec Ideal Cert.KernelIdeal.S128x64 .f32)
    (x11 : FVec Ideal Cert.KernelIdeal.S64 .f32) :
    Cert.ReferenceIdeal.Read.val_main_v36 (F := Ideal) x0 x1 x2 x3 x4 x5 x6 x7 x8 x9 x10 x11 = Cert.KernelIdeal.Whole.value x0 x1 x2 x3 x4 x5 x6 x7 x8 x9 x10 x11 := by
  rw [Cert.ReferenceIdeal.Bridge.value_eq, gathered_eq, gathered_eq', scattered_eq]
  rfl

end Cert.Bridge

end
-- ==== Proof.lean ====
/-
  The interaction-network step: the kernel against its reference, on the extended reals.

  The kernel computes the edge network in a first region (125 blocks of 8000 edges), scatter-adds its outputs at
  the receivers on the host, and computes the node network in a second region (10 blocks of 10000 nodes); the
  first weight matrix of each network is cut into 64-row blocks, one product per block.  The reference joins
  the operands side by side and takes one product against each whole weight matrix.  On the extended reals a
  product against stacked blocks is the sum of the products against the blocks, by associativity and
  commutativity of addition alone, so the two results are equal index by index; the inputs' finiteness is not
  used.  The ideal pass rewrote nothing, so the idealized kernel is the kernel's own text.
-/
import proofs.«160199_j7653631722048_2_alg».proof.Defs
import proofs.«160199_j7653631722048_2_alg».proof.Proof.Gen.Kernel
import proofs.«160199_j7653631722048_2_alg».proof.Proof.Gen.Kernel.Skeleton
import proofs.«160199_j7653631722048_2_alg».proof.Proof.Gen.Kernel.Launch
import proofs.«160199_j7653631722048_2_alg».proof.Proof.Gen.Kernel.Points
import proofs.«160199_j7653631722048_2_alg».proof.Proof.Gen.Kernel.Frame
import proofs.«160199_j7653631722048_2_alg».proof.Proof.Gen.KernelIdeal
import proofs.«160199_j7653631722048_2_alg».proof.Proof.Gen.KernelIdeal.Skeleton
import proofs.«160199_j7653631722048_2_alg».proof.Proof.Gen.KernelIdeal.Launch
import proofs.«160199_j7653631722048_2_alg».proof.Proof.Gen.KernelIdeal.Points
import proofs.«160199_j7653631722048_2_alg».proof.Proof.Gen.KernelIdeal.Frame
import proofs.«160199_j7653631722048_2_alg».proof.Proof.Gen.ReferenceIdeal
import proofs.«160199_j7653631722048_2_alg».proof.Proof.Gen.Pre_finite_inputs
import proofs.«160199_j7653631722048_2_alg».proof.Proof.Gen.ReferenceIdeal.Run
import proofs.«160199_j7653631722048_2_alg».proof.Proof.Gen.ReferenceIdeal.Read
import proofs.«160199_j7653631722048_2_alg».proof.Proof.KernelValue
import proofs.«160199_j7653631722048_2_alg».proof.Proof.Bridge
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and leaves its arguments unchanged. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and leaves its arguments unchanged: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs end at the one value function of them. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v36_eq, h0, h1, h2, h3, h4, h5, h6, h7, h8, h9, h10, h11]
  exact Cert.Bridge.ref_is_kernel _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
